-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S2x3000000 : Shape := ⟨2, ![2, 3000000]⟩
abbrev S3000000 : Shape := ⟨1, ![3000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3000000 : S_.BroadcastsInDim S3000000 (![] : Fin 0 → Fin S3000000.rank)
  reducesTo_S3000000_S_d0 : S3000000.ReducesTo [0] S_

variable [Facts]

def fn_part1 {F : FTy → Type} [FloatOps F] (main_arg4 : FVec F S64x64 .f32) (main_arg5 : FVec F S64 .f32) (main_arg7 : FVec F S3000000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3000000 .f32 := Host.absf main_arg7
  let main_cst_10 : FVec F S_ .f32 := constant S_ .f32 0x7F800000#32
  let main_v30 : FVec F S3000000 .f32 := broadcastInDim S3000000 ![] bcast_S_S3000000 main_cst_10
  let main_v31 : IVec S3000000 1 := cmpf .olt main_v29 main_v30
  let main_c_11 : IVec S_ 1 := constantI S_ 1 1#1
  let main_v32 : IVec S_ 1 := (fun x v => Host.reduce IntOp.andi x v reducesTo_S3000000_S_d0 h_S_) main_v31 main_c_11
  let main_v33 : IVec S_ 1 := andi main_v28 main_v32
  main_v33

def fn {F : FTy → Type} [FloatOps F] (main_arg0 : FVec F S100000x64 .f32) (main_arg1 : FVec F S50000x64 .f32) (main_arg2 : FVec F S64x64 .f32) (main_arg3 : FVec F S64 .f32) (main_arg4 : FVec F S64x64 .f32) (main_arg5 : FVec F S64 .f32) (main_arg6 : IVec S2x3000000 32) (main_arg7 : FVec F S3000000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg7 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S2x3000000 : Shape := ⟨2, ![2, 3000000]⟩
abbrev S3000000 : Shape := ⟨1, ![3000000]⟩
abbrev S1x3000000 : Shape := ⟨2, ![1, 3000000]⟩
abbrev S150000x64 : Shape := ⟨2, ![150000, 64]⟩
abbrev S_ : Shape := ⟨0, ![]⟩
abbrev S150000 : Shape := ⟨1, ![150000]⟩
abbrev S3000000x1 : Shape := ⟨2, ![3000000, 1]⟩
abbrev S150000x1 : Shape := ⟨2, ![150000, 1]⟩
abbrev S3000x64 : Shape := ⟨2, ![3000, 64]⟩
abbrev S3000000x64 : Shape := ⟨2, ![3000000, 64]⟩
abbrev S1x64 : Shape := ⟨2, ![1, 64]⟩
abbrev S3000x1 : Shape := ⟨2, ![3000, 1]⟩
abbrev S1x150000x64 : Shape := ⟨3, ![1, 150000, 64]⟩
abbrev S3x150000x64 : Shape := ⟨3, ![3, 150000, 64]⟩

abbrev nBuf : Space → Nat
  | .hbm => 88
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S2x3000000, .i32⟩
  | .hbm, ⟨7, _⟩ => ⟨S3000000, .f32⟩
  | .hbm, ⟨8, _⟩ => ⟨S1x3000000, .i32⟩
  | .hbm, ⟨9, _⟩ => ⟨S3000000, .i32⟩
  | .hbm, ⟨10, _⟩ => ⟨S1x3000000, .i32⟩
  | .hbm, ⟨11, _⟩ => ⟨S3000000, .i32⟩
  | .hbm, ⟨12, _⟩ => ⟨S150000x64, .f32⟩
  | .hbm, ⟨13, _⟩ => ⟨S_, .f32⟩
  | .hbm, ⟨14, _⟩ => ⟨S3000000, .f32⟩
  | .hbm, ⟨15, _⟩ => ⟨S_, .f32⟩
  | .hbm, ⟨16, _⟩ => ⟨S150000, .f32⟩
  | .hbm, ⟨17, _⟩ => ⟨S3000000x1, .i32⟩
  | .hbm, ⟨18, _⟩ => ⟨S150000, .f32⟩
  | .hbm, ⟨19, _⟩ => ⟨S_, .f32⟩
  | .hbm, ⟨20, _⟩ => ⟨S150000, .f32⟩
  | .hbm, ⟨21, _⟩ => ⟨S150000, .f32⟩
  | .hbm, ⟨22, _⟩ => ⟨S150000, .f32⟩
  | .hbm, ⟨23, _⟩ => ⟨S_, .i32⟩
  | .hbm, ⟨24, _⟩ => ⟨S3000000, .i32⟩
  | .hbm, ⟨25, _⟩ => ⟨S3000000, .i1⟩
  | .hbm, ⟨26, _⟩ => ⟨S_, .i32⟩
  | .hbm, ⟨27, _⟩ => ⟨S3000000, .i32⟩
  | .hbm, ⟨28, _⟩ => ⟨S3000000, .i32⟩
  | .hbm, ⟨29, _⟩ => ⟨S3000000, .i32⟩
  | .hbm, ⟨30, _⟩ => ⟨S3000000x1, .i32⟩
  | .hbm, ⟨31, _⟩ => ⟨S3000000, .f32⟩
  | .hbm, ⟨32, _⟩ => ⟨S_, .i32⟩
  | .hbm, ⟨33, _⟩ => ⟨S3000000, .i32⟩
  | .hbm, ⟨34, _⟩ => ⟨S3000000, .i1⟩
  | .hbm, ⟨35, _⟩ => ⟨S_, .i32⟩
  | .hbm, ⟨36, _⟩ => ⟨S3000000, .i32⟩
  | .hbm, ⟨37, _⟩ => ⟨S3000000, .i32⟩
  | .hbm, ⟨38, _⟩ => ⟨S3000000, .i32⟩
  | .hbm, ⟨39, _⟩ => ⟨S3000000x1, .i32⟩
  | .hbm, ⟨40, _⟩ => ⟨S3000000, .f32⟩
  | .hbm, ⟨41, _⟩ => ⟨S3000000, .f32⟩
  | .hbm, ⟨42, _⟩ => ⟨S150000, .f32⟩
  | .hbm, ⟨43, _⟩ => ⟨S150000x1, .f32⟩
  | .hbm, ⟨44, _⟩ => ⟨S150000x64, .f32⟩
  | .hbm, ⟨45, _⟩ => ⟨S_, .i32⟩
  | .hbm, ⟨46, _⟩ => ⟨S3000000, .i32⟩
  | .hbm, ⟨47, _⟩ => ⟨S3000000, .i1⟩
  | .hbm, ⟨48, _⟩ => ⟨S_, .i32⟩
  | .hbm, ⟨49, _⟩ => ⟨S3000000, .i32⟩
  | .hbm, ⟨50, _⟩ => ⟨S3000000, .i32⟩
  | .hbm, ⟨51, _⟩ => ⟨S3000000, .i32⟩
  | .hbm, ⟨52, _⟩ => ⟨S3000000x1, .i32⟩
  | .hbm, ⟨53, _⟩ => ⟨S3000000x64, .f32⟩
  | .hbm, ⟨54, _⟩ => ⟨S3000000x1, .f32⟩
  | .hbm, ⟨55, _⟩ => ⟨S3000000x64, .f32⟩
  | .hbm, ⟨56, _⟩ => ⟨S3000000x64, .f32⟩
  | .hbm, ⟨57, _⟩ => ⟨S_, .f32⟩
  | .hbm, ⟨58, _⟩ => ⟨S150000x64, .f32⟩
  | .hbm, ⟨59, _⟩ => ⟨S3000000x1, .i32⟩
  | .hbm, ⟨60, _⟩ => ⟨S150000x64, .f32⟩
  | .hbm, ⟨61, _⟩ => ⟨S1x64, .f32⟩
  | .hbm, ⟨62, _⟩ => ⟨S150000x64, .f32⟩
  | .hbm, ⟨63, _⟩ => ⟨S150000x64, .f32⟩
  | .hbm, ⟨64, _⟩ => ⟨S150000x64, .f32⟩
  | .hbm, ⟨65, _⟩ => ⟨S_, .i32⟩
  | .hbm, ⟨66, _⟩ => ⟨S3000000, .i32⟩
  | .hbm, ⟨67, _⟩ => ⟨S3000000, .i1⟩
  | .hbm, ⟨68, _⟩ => ⟨S_, .i32⟩
  | .hbm, ⟨69, _⟩ => ⟨S3000000, .i32⟩
  | .hbm, ⟨70, _⟩ => ⟨S3000000, .i32⟩
  | .hbm, ⟨71, _⟩ => ⟨S3000000, .i32⟩
  | .hbm, ⟨72, _⟩ => ⟨S3000000x1, .i32⟩
  | .hbm, ⟨73, _⟩ => ⟨S3000000x64, .f32⟩
  | .hbm, ⟨74, _⟩ => ⟨S3000000x1, .f32⟩
  | .hbm, ⟨75, _⟩ => ⟨S3000000x64, .f32⟩
  | .hbm, ⟨76, _⟩ => ⟨S3000000x64, .f32⟩
  | .hbm, ⟨77, _⟩ => ⟨S_, .f32⟩
  | .hbm, ⟨78, _⟩ => ⟨S150000x64, .f32⟩
  | .hbm, ⟨79, _⟩ => ⟨S3000000x1, .i32⟩
  | .hbm, ⟨80, _⟩ => ⟨S150000x64, .f32⟩
  | .hbm, ⟨81, _⟩ => ⟨S1x64, .f32⟩
  | .hbm, ⟨82, _⟩ => ⟨S150000x64, .f32⟩
  | .hbm, ⟨83, _⟩ => ⟨S150000x64, .f32⟩
  | .hbm, ⟨84, _⟩ => ⟨S1x150000x64, .f32⟩
  | .hbm, ⟨85, _⟩ => ⟨S1x150000x64, .f32⟩
  | .hbm, ⟨86, _⟩ => ⟨S1x150000x64, .f32⟩
  | .hbm, ⟨87, _⟩ => ⟨S3x150000x64, .f32⟩
  | .local _ .vmem, ⟨0, _⟩ => ⟨S3000x64, .f32⟩
  | .local _ .vmem, ⟨1, _⟩ => ⟨S3000x64, .f32⟩
  | .local _ .vmem, ⟨2, _⟩ => ⟨S64x64, .f32⟩
  | .local _ .vmem, ⟨3, _⟩ => ⟨S3000x64, .f32⟩
  | .local _ .vmem, ⟨4, _⟩ => ⟨S3000x64, .f32⟩
  | .local _ .vmem, ⟨5, _⟩ => ⟨S3000x64, .f32⟩
  | .local _ .vmem, ⟨6, _⟩ => ⟨S3000x64, .f32⟩
  | .local _ .vmem, ⟨7, _⟩ => ⟨S3000x64, .f32⟩
  | .local _ .vmem, ⟨8, _⟩ => ⟨S3000x64, .f32⟩
  | .local _ .vmem, ⟨9, _⟩ => ⟨S3000x1, .f32⟩
  | .local _ .vmem, ⟨10, _⟩ => ⟨S3000x1, .f32⟩
  | .local _ .vmem, ⟨11, _⟩ => ⟨S1x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S3000x64, .f32⟩
  | .local _ .vmem, ⟨17, _⟩ => ⟨S3000x64, .f32⟩
  | .local _ .vmem, ⟨18, _⟩ => ⟨S64x64, .f32⟩
  | .local _ .vmem, ⟨19, _⟩ => ⟨S3000x64, .f32⟩
  | .local _ .vmem, ⟨20, _⟩ => ⟨S3000x64, .f32⟩
  | .local _ .vmem, ⟨21, _⟩ => ⟨S3000x64, .f32⟩
  | .local _ .vmem, ⟨22, _⟩ => ⟨S3000x64, .f32⟩
  | .local _ .vmem, ⟨23, _⟩ => ⟨S3000x64, .f32⟩
  | .local _ .vmem, ⟨24, _⟩ => ⟨S3000x64, .f32⟩
  | .local _ .vmem, ⟨25, _⟩ => ⟨S3000x1, .f32⟩
  | .local _ .vmem, ⟨26, _⟩ => ⟨S3000x1, .f32⟩
  | .local _ .vmem, ⟨27, _⟩ => ⟨S1x64, .f32⟩
  | .local _ .vmem, ⟨28, _⟩ => ⟨S3000x64, .f32⟩
  | .local _ .vmem, ⟨29, _⟩ => ⟨S3000x64, .f32⟩
  | .local _ .vmem, ⟨30, _⟩ => ⟨S3000x64, .f32⟩
  | .local _ .vmem, ⟨31, _⟩ => ⟨S3000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44_0 : Ref sig .tc := ⟨.hbm, 62, rfl⟩
abbrev main_v44_1 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60_0 : Ref sig .tc := ⟨.hbm, 82, rfl⟩
abbrev main_v60_1 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S3000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S3000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3000000_S1x3000000_0_0 : S2x3000000.Slices ![0, 0] S1x3000000
  shapeCasts_S1x3000000_S3000000 : S1x3000000.ShapeCasts S3000000
  slices_S2x3000000_S1x3000000_1_0 : S2x3000000.Slices ![1, 0] S1x3000000
  concatenates_S100000x64_S50000x64_S150000x64_d0 : Shape.Concatenates [S100000x64, S50000x64] S150000x64 0
  bcast_S_S3000000 : S_.BroadcastsInDim S3000000 (![] : Fin 0 → Fin S3000000.rank)
  bcast_S_S150000 : S_.BroadcastsInDim S150000 (![] : Fin 0 → Fin S150000.rank)
  bcast_S3000000_S3000000x1_0 : S3000000.BroadcastsInDim S3000000x1 (![0] : Fin 1 → Fin S3000000x1.rank)
  shapeCasts_S150000_S150000x1 : S150000.ShapeCasts S150000x1
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  shapeCasts_S64_S1x64 : S64.ShapeCasts S1x64
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S3000x1_S3000x64 : S3000x1.Broadcasts S3000x64
  broadcasts_S1x64_S3000x64 : S1x64.Broadcasts S3000x64
  bcast_S150000x64_S1x150000x64_1_2 : S150000x64.BroadcastsInDim S1x150000x64 (![1, 2] : Fin 2 → Fin S1x150000x64.rank)
  concatenates_S1x150000x64_S1x150000x64_S1x150000x64_S3x150000x64_d0 : Shape.Concatenates [S1x150000x64, S1x150000x64, S1x150000x64] S3x150000x64 0
  scatter_S150000_S3000000x1_S3000000_n_0_0_1_wf : ScatterDims.WF S150000 S3000000x1 S3000000 [] [0] [0] 1
  gather_S150000_S3000000x1_S3000000_n_0_n_n_0_1_1_wf : GatherDims.WF S150000 S3000000x1 S3000000 [] [0] [] [0] [] 1 ![1]
  dot_S3000x64_S64x64_S3000x64_1_0_0_1_n_n_wf : DotDims.WF S3000x64 S64x64 S3000x64 [1] [0] [0] [1] [] []
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S150000x64.size a
  hwx0_2 : ∀ i : grid0.Coords, EltTy.bits .f32 = 32 ∨ (Rect.block (s := S150000x64) S3000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S150000x64.size a
  hwx1_1 : ∀ i : grid1.Coords, EltTy.bits .f32 = 32 ∨ (Rect.block (s := S150000x64) S3000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x1.size a ≤ S150000x1.size a
  hwx1_2 : ∀ i : grid1.Coords, EltTy.bits .f32 = 32 ∨ (Rect.block (s := S150000x1) S3000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3000x64.size a ≤ S150000x64.size a
  hwx1_4 : ∀ i : grid1.Coords, EltTy.bits .f32 = 32 ∨ (Rect.block (s := S150000x64) S3000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3000x64.size a ≤ S150000x64.size a
  hwx1_5 : ∀ i : grid1.Coords, EltTy.bits .f32 = 32 ∨ (Rect.block (s := S150000x64) S3000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S150000x64.size a
  hwx2_0 : ∀ i : grid2.Coords, EltTy.bits .f32 = 32 ∨ (Rect.block (s := S150000x64) S3000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x64.size a ≤ S150000x64.size a
  hwx2_2 : ∀ i : grid2.Coords, EltTy.bits .f32 = 32 ∨ (Rect.block (s := S150000x64) S3000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x64.size a ≤ S150000x64.size a
  hwx3_0 : ∀ i : grid3.Coords, EltTy.bits .f32 = 32 ∨ (Rect.block (s := S150000x64) S3000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3000x64.size a ≤ S150000x64.size a
  hwx3_1 : ∀ i : grid3.Coords, EltTy.bits .f32 = 32 ∨ (Rect.block (s := S150000x64) S3000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3000x1.size a ≤ S150000x1.size a
  hwx3_2 : ∀ i : grid3.Coords, EltTy.bits .f32 = 32 ∨ (Rect.block (s := S150000x1) S3000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S3000x64.size a ≤ S150000x64.size a
  hwx3_4 : ∀ i : grid3.Coords, EltTy.bits .f32 = 32 ∨ (Rect.block (s := S150000x64) S3000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S3000x64.size a ≤ S150000x64.size a
  hwx3_5 : ∀ i : grid3.Coords, EltTy.bits .f32 = 32 ∨ (Rect.block (s := S150000x64) S3000x64.size (cc3_transform_5 i) (hinb3_5 i)).WholeWords (EltTy.packing .f32)

variable [Facts₀]

def scatter_S150000_S3000000x1_S3000000_n_0_0_1 : ScatterDims S150000 S3000000x1 S3000000 where
  updateWindowDims := []
  insertedWindowDims := [0]
  scatterDimsToOperandDims := [0]
  indexVectorDim := 1
  wf := scatter_S150000_S3000000x1_S3000000_n_0_0_1_wf
def gather_S150000_S3000000x1_S3000000_n_0_n_n_0_1_1 : GatherDims S150000 S3000000x1 S3000000 where
  offsetDims := []
  collapsedSliceDims := [0]
  operandBatchingDims := []
  startIndicesBatchingDims := []
  startIndexMap := [0]
  indexVectorDim := 1
  sliceSizes := ![1]
  wf := gather_S150000_S3000000x1_S3000000_n_0_n_n_0_1_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf
def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

abbrev win0_0 : Pipeline.Window sig grid0 :=
  Pipeline.Window.ofSpec (Memref.whole main_v4) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S3000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S3000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44_0) S3000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v44_1) S3000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44_1) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S3000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S3000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S3000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S3000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60_0) S3000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v60_1) S3000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S64 : Shape := ⟨1, ![64]⟩
abbrev S2x3000000 : Shape := ⟨2, ![2, 3000000]⟩
abbrev S3000000 : Shape := ⟨1, ![3000000]⟩
abbrev S1x3000000 : Shape := ⟨2, ![1, 3000000]⟩
abbrev S150000x64 : Shape := ⟨2, ![150000, 64]⟩
abbrev S_ : Shape := ⟨0, ![]⟩
abbrev S150000 : Shape := ⟨1, ![150000]⟩
abbrev S3000000x1 : Shape := ⟨2, ![3000000, 1]⟩
abbrev S3000000x64 : Shape := ⟨2, ![3000000, 64]⟩
abbrev S150000x1 : Shape := ⟨2, ![150000, 1]⟩
abbrev S1x64 : Shape := ⟨2, ![1, 64]⟩
abbrev S1x150000x64 : Shape := ⟨3, ![1, 150000, 64]⟩
abbrev S3x150000x64 : Shape := ⟨3, ![3, 150000, 64]⟩

abbrev nBuf : Space → Nat
  | .hbm => 131
  | .vmem => 0
  | .smem => 0
  | _ => 0

abbrev hbmTy0_0 (i : Nat) : BufTy := match i % 128 with
  | 0 => ⟨S100000x64, .f32⟩
  | 1 => ⟨S50000x64, .f32⟩
  | 2 => ⟨S64x64, .f32⟩
  | 3 => ⟨S64, .f32⟩
  | 4 => ⟨S64x64, .f32⟩
  | 5 => ⟨S64, .f32⟩
  | 6 => ⟨S2x3000000, .i32⟩
  | 7 => ⟨S3000000, .f32⟩
  | 8 => ⟨S1x3000000, .i32⟩
  | 9 => ⟨S3000000, .i32⟩
  | 10 => ⟨S1x3000000, .i32⟩
  | 11 => ⟨S3000000, .i32⟩
  | 12 => ⟨S150000x64, .f32⟩
  | 13 => ⟨S150000x64, .f32⟩
  | 14 => ⟨S_, .f32⟩
  | 15 => ⟨S3000000, .f32⟩
  | 16 => ⟨S_, .f32⟩
  | 17 => ⟨S150000, .f32⟩
  | 18 => ⟨S3000000x1, .i32⟩
  | 19 => ⟨S150000, .f32⟩
  | 20 => ⟨S_, .f32⟩
  | 21 => ⟨S150000, .f32⟩
  | 22 => ⟨S150000, .f32⟩
  | 23 => ⟨S150000, .f32⟩
  | 24 => ⟨S_, .i32⟩
  | 25 => ⟨S3000000, .i32⟩
  | 26 => ⟨S3000000, .i1⟩
  | 27 => ⟨S_, .i32⟩
  | 28 => ⟨S3000000, .i32⟩
  | 29 => ⟨S3000000, .i32⟩
  | 30 => ⟨S3000000, .i32⟩
  | 31 => ⟨S3000000x1, .i32⟩
  | 32 => ⟨S3000000, .f32⟩
  | 33 => ⟨S_, .i32⟩
  | 34 => ⟨S3000000, .i32⟩
  | 35 => ⟨S3000000, .i1⟩
  | 36 => ⟨S_, .i32⟩
  | 37 => ⟨S3000000, .i32⟩
  | 38 => ⟨S3000000, .i32⟩
  | 39 => ⟨S3000000, .i32⟩
  | 40 => ⟨S3000000x1, .i32⟩
  | 41 => ⟨S3000000, .f32⟩
  | 42 => ⟨S3000000, .f32⟩
  | 43 => ⟨S_, .i32⟩
  | 44 => ⟨S3000000, .i32⟩
  | 45 => ⟨S3000000, .i1⟩
  | 46 => ⟨S_, .i32⟩
  | 47 => ⟨S3000000, .i32⟩
  | 48 => ⟨S3000000, .i32⟩
  | 49 => ⟨S3000000, .i32⟩
  | 50 => ⟨S3000000x1, .i32⟩
  | 51 => ⟨S3000000x64, .f32⟩
  | 52 => ⟨S3000000x1, .f32⟩
  | 53 => ⟨S3000000x64, .f32⟩
  | 54 => ⟨S3000000x64, .f32⟩
  | 55 => ⟨S_, .f32⟩
  | 56 => ⟨S150000x64, .f32⟩
  | 57 => ⟨S3000000x1, .i32⟩
  | 58 => ⟨S150000x64, .f32⟩
  | 59 => ⟨S150000, .f32⟩
  | 60 => ⟨S150000x1, .f32⟩
  | 61 => ⟨S150000x64, .f32⟩
  | 62 => ⟨S150000x64, .f32⟩
  | 63 => ⟨S150000x64, .f32⟩
  | 64 => ⟨S1x64, .f32⟩
  | 65 => ⟨S150000x64, .f32⟩
  | 66 => ⟨S150000x64, .f32⟩
  | 67 => ⟨S_, .f32⟩
  | 68 => ⟨S150000x64, .f32⟩
  | 69 => ⟨S150000x64, .f32⟩
  | 70 => ⟨S150000x64, .f32⟩
  | 71 => ⟨S_, .f32⟩
  | 72 => ⟨S3000000, .f32⟩
  | 73 => ⟨S_, .f32⟩
  | 74 => ⟨S150000, .f32⟩
  | 75 => ⟨S3000000x1, .i32⟩
  | 76 => ⟨S150000, .f32⟩
  | 77 => ⟨S_, .f32⟩
  | 78 => ⟨S150000, .f32⟩
  | 79 => ⟨S150000, .f32⟩
  | 80 => ⟨S150000, .f32⟩
  | 81 => ⟨S_, .i32⟩
  | 82 => ⟨S3000000, .i32⟩
  | 83 => ⟨S3000000, .i1⟩
  | 84 => ⟨S_, .i32⟩
  | 85 => ⟨S3000000, .i32⟩
  | 86 => ⟨S3000000, .i32⟩
  | 87 => ⟨S3000000, .i32⟩
  | 88 => ⟨S3000000x1, .i32⟩
  | 89 => ⟨S3000000, .f32⟩
  | 90 => ⟨S_, .i32⟩
  | 91 => ⟨S3000000, .i32⟩
  | 92 => ⟨S3000000, .i1⟩
  | 93 => ⟨S_, .i32⟩
  | 94 => ⟨S3000000, .i32⟩
  | 95 => ⟨S3000000, .i32⟩
  | 96 => ⟨S3000000, .i32⟩
  | 97 => ⟨S3000000x1, .i32⟩
  | 98 => ⟨S3000000, .f32⟩
  | 99 => ⟨S3000000, .f32⟩
  | 100 => ⟨S_, .i32⟩
  | 101 => ⟨S3000000, .i32⟩
  | 102 => ⟨S3000000, .i1⟩
  | 103 => ⟨S_, .i32⟩
  | 104 => ⟨S3000000, .i32⟩
  | 105 => ⟨S3000000, .i32⟩
  | 106 => ⟨S3000000, .i32⟩
  | 107 => ⟨S3000000x1, .i32⟩
  | 108 => ⟨S3000000x64, .f32⟩
  | 109 => ⟨S3000000x1, .f32⟩
  | 110 => ⟨S3000000x64, .f32⟩
  | 111 => ⟨S3000000x64, .f32⟩
  | 112 => ⟨S_, .f32⟩
  | 113 => ⟨S150000x64, .f32⟩
  | 114 => ⟨S3000000x1, .i32⟩
  | 115 => ⟨S150000x64, .f32⟩
  | 116 => ⟨S150000, .f32⟩
  | 117 => ⟨S150000x1, .f32⟩
  | 118 => ⟨S150000x64, .f32⟩
  | 119 => ⟨S150000x64, .f32⟩
  | 120 => ⟨S150000x64, .f32⟩
  | 121 => ⟨S1x64, .f32⟩
  | 122 => ⟨S150000x64, .f32⟩
  | 123 => ⟨S150000x64, .f32⟩
  | 124 => ⟨S_, .f32⟩
  | 125 => ⟨S150000x64, .f32⟩
  | 126 => ⟨S150000x64, .f32⟩
  | 127 => ⟨S1x150000x64, .f32⟩
  | _ => ⟨S100000x64, .f32⟩

abbrev hbmTy0_1 (i : Nat) : BufTy := match i % 128 with
  | 0 => ⟨S1x150000x64, .f32⟩
  | 1 => ⟨S1x150000x64, .f32⟩
  | 2 => ⟨S3x150000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_call1_cst : Ref sig .tc := ⟨.hbm, 124, rfl⟩
abbrev main_call1_v0 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]

class Facts₀ : Prop where
  slices_S2x3000000_S1x3000000_0_0 : S2x3000000.Slices ![0, 0] S1x3000000
  shapeCasts_S1x3000000_S3000000 : S1x3000000.ShapeCasts S3000000
  slices_S2x3000000_S1x3000000_1_0 : S2x3000000.Slices ![1, 0] S1x3000000
  concatenates_S100000x64_S50000x64_S150000x64_d0 : Shape.Concatenates [S100000x64, S50000x64] S150000x64 0
  bcast_S_S3000000 : S_.BroadcastsInDim S3000000 (![] : Fin 0 → Fin S3000000.rank)
  bcast_S_S150000 : S_.BroadcastsInDim S150000 (![] : Fin 0 → Fin S150000.rank)
  bcast_S3000000_S3000000x1_0 : S3000000.BroadcastsInDim S3000000x1 (![0] : Fin 1 → Fin S3000000x1.rank)
  bcast_S3000000x1_S3000000x64_0_1 : S3000000x1.BroadcastsInDim S3000000x64 (![0, 1] : Fin 2 → Fin S3000000x64.rank)
  bcast_S_S150000x64 : S_.BroadcastsInDim S150000x64 (![] : Fin 0 → Fin S150000x64.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  bcast_S150000x64_S1x150000x64_1_2 : S150000x64.BroadcastsInDim S1x150000x64 (![1, 2] : Fin 2 → Fin S1x150000x64.rank)
  concatenates_S1x150000x64_S1x150000x64_S1x150000x64_S3x150000x64_d0 : Shape.Concatenates [S1x150000x64, S1x150000x64, S1x150000x64] S3x150000x64 0
  dot_S150000x64_S64x64_S150000x64_1_0_0_1_n_n_wf : DotDims.WF S150000x64 S64x64 S150000x64 [1] [0] [0] [1] [] []
  scatter_S150000_S3000000x1_S3000000_n_0_0_1_wf : ScatterDims.WF S150000 S3000000x1 S3000000 [] [0] [0] 1
  gather_S150000_S3000000x1_S3000000_n_0_n_n_0_1_1_wf : GatherDims.WF S150000 S3000000x1 S3000000 [] [0] [] [0] [] 1 ![1]
  gather_S150000x64_S3000000x1_S3000000x64_1_0_n_n_0_1_164_wf : GatherDims.WF S150000x64 S3000000x1 S3000000x64 [1] [0] [] [0] [] 1 ![1, 64]
  scatter_S150000x64_S3000000x1_S3000000x64_1_0_0_1_wf : ScatterDims.WF S150000x64 S3000000x1 S3000000x64 [1] [0] [0] 1

variable [Facts₀]

def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def scatter_S150000_S3000000x1_S3000000_n_0_0_1 : ScatterDims S150000 S3000000x1 S3000000 where
  updateWindowDims := []
  insertedWindowDims := [0]
  scatterDimsToOperandDims := [0]
  indexVectorDim := 1
  wf := scatter_S150000_S3000000x1_S3000000_n_0_0_1_wf
def gather_S150000_S3000000x1_S3000000_n_0_n_n_0_1_1 : GatherDims S150000 S3000000x1 S3000000 where
  offsetDims := []
  collapsedSliceDims := [0]
  operandBatchingDims := []
  startIndicesBatchingDims := []
  startIndexMap := [0]
  indexVectorDim := 1
  sliceSizes := ![1]
  wf := gather_S150000_S3000000x1_S3000000_n_0_n_n_0_1_1_wf
def gather_S150000x64_S3000000x1_S3000000x64_1_0_n_n_0_1_164 : GatherDims S150000x64 S3000000x1 S3000000x64 where
  offsetDims := [1]
  collapsedSliceDims := [0]
  operandBatchingDims := []
  startIndicesBatchingDims := []
  startIndexMap := [0]
  indexVectorDim := 1
  sliceSizes := ![1, 64]
  wf := gather_S150000x64_S3000000x1_S3000000x64_1_0_n_n_0_1_164_wf
def scatter_S150000x64_S3000000x1_S3000000x64_1_0_0_1 : ScatterDims S150000x64 S3000000x1 S3000000x64 where
  updateWindowDims := [1]
  insertedWindowDims := [0]
  scatterDimsToOperandDims := [0]
  indexVectorDim := 1
  wf := scatter_S150000x64_S3000000x1_S3000000x64_1_0_0_1_wf

class Facts : Prop extends Facts₀ where

variable [Facts]
-- ==== Proof.BitsRegion0.lean ====
/-
  Region 0 of the program: the pallas_call that multiplies a block of 3000 rows of the node-feature matrix by the
  64 x 64 weight matrix. Stated at a parameter V, the contents of the core's buffers when the region is entered:
  the blocks its windows stage at a grid point, what the body leaves in the output window's buffer (its one store,
  of the product of the two loaded blocks), the body's triple, the pipeline's proof data and the body obligation.
-/
import proofs.«153885_j26242250178821_1_alg».proof.Proof.Gen.Kernel.Launch
import proofs.«153885_j26242250178821_1_alg».proof.Proof.Gen.Kernel.Skeleton
import proofs.«153885_j26242250178821_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's current buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight matrix at every point, fetched there or not: its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 3000 x 64 block and the whole 64 x 64 matrix, as the rectangles the body loads and stores through. -/
abbrev r0_0 : Rect S3000x64 := Rect.unit (s := S3000x64) ![0, 0] S3000x64.size inb_S3000x64_S3000x64_0_0
abbrev r0_1 : Rect S64x64 := Rect.unit (s := S64x64) ![0, 0] S64x64.size inb_S64x64_S64x64_0_0

/-- The output window's buffer after the body: its one store, of the product of the row block and the weights. -/
def out0_2 (x0 : Vec F S3000x64 .f32) (x1 : Vec F S64x64 .f32) : Vec F S3000x64 .f32 :=
  View.canon [⟨r0_0, k0_pay1 (View.ld x0 r0_0) (View.ld x1 r0_1)⟩]

/-- The one store covers the buffer. -/
theorem cover0_2 (p0 : Vec F S3000x64 .f32) (y : S3000x64.Idx) :
    ∃ pc ∈ ([⟨r0_0, p0⟩] : List (View.Piece (Elt F) S3000x64 .f32)), y ∈ pc.1.set :=
  View.cover_of_tiled [⟨r0_0, p0⟩] S3000x64.size (by rfl) y

set_option maxHeartbeats 1000000 in
/-- The body on whole staging buffers, the inputs' at contents x0, x1 and the output's at anything, runs to the
    continuation with the inputs' as they were and the output's at out0_2 of them. -/
theorem sound_kernel0 (c : Dev nD) (E : Set ℕ) (i : grid0.Coords) (arg1 : Memref sig .tc .vmem S3000x64 .f32) (harg1 : arg1.IsWhole) (arg2 : Memref sig .tc .vmem S64x64 .f32) (harg2 : arg2.IsWhole) (arg3 : Memref sig .tc .vmem S3000x64 .f32) (harg3 : arg3.IsWhole)
    (x0 : Vec F S3000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body at point t each
    input's buffer at its block and the output's at the product of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  Region 1 of the program: the pallas_call that combines, on a block of 3000 rows, the aggregated messages, the
  self-loop term (the transformed features scaled by the squared inverse root degree, a column) and the bias (a row),
  and stores the sum and its positive part. Stated at a parameter V, the contents of the core's buffers when the
  region is entered: the blocks its windows stage at a grid point, what the body leaves in each output window's
  buffer, the body's triple, the pipeline's proof data and the body obligation.
-/
import proofs.«153885_j26242250178821_1_alg».proof.Proof.Gen.Kernel.Launch
import proofs.«153885_j26242250178821_1_alg».proof.Proof.Gen.Kernel.Skeleton
import proofs.«153885_j26242250178821_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated-messages window's current buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The transformed-features window's current buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The degree-column window's current buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias window's buffer holds the whole bias row at every point, fetched there or not: its block index never moves. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole blocks, as the rectangles the body loads and stores through. -/
abbrev r1_0 : Rect S3000x64 := Rect.unit (s := S3000x64) ![0, 0] S3000x64.size inb_S3000x64_S3000x64_0_0
abbrev r1_1 : Rect S3000x1 := Rect.unit (s := S3000x1) ![0, 0] S3000x1.size inb_S3000x1_S3000x1_0_0
abbrev r1_2 : Rect S1x64 := Rect.unit (s := S1x64) ![0, 0] S1x64.size inb_S1x64_S1x64_0_0

/-- The first output window's buffer after the body: its one store, of aggregated + features * column + bias. -/
def out1_4 (x0 : Vec F S3000x64 .f32) (x1 : Vec F S3000x64 .f32) (x2 : Vec F S3000x1 .f32) (x3 : Vec F S1x64 .f32) : Vec F S3000x64 .f32 :=
  View.canon [⟨r1_0, k1_pay1 (View.ld x0 r1_0) (View.ld x1 r1_0) (View.ld x2 r1_1) (View.ld x3 r1_2)⟩]

/-- The second output window's buffer after the body: its one store, of the positive part of the same sum. -/
def out1_5 (x0 : Vec F S3000x64 .f32) (x1 : Vec F S3000x64 .f32) (x2 : Vec F S3000x1 .f32) (x3 : Vec F S1x64 .f32) : Vec F S3000x64 .f32 :=
  View.canon [⟨r1_0, k1_pay2 (View.ld x0 r1_0) (View.ld x1 r1_0) (View.ld x2 r1_1) (View.ld x3 r1_2)⟩]

/-- One whole-block store covers a buffer. -/
theorem cover1 (p0 : Vec F S3000x64 .f32) (y : S3000x64.Idx) :
    ∃ pc ∈ ([⟨r1_0, p0⟩] : List (View.Piece (Elt F) S3000x64 .f32)), y ∈ pc.1.set :=
  View.cover_of_tiled [⟨r1_0, p0⟩] S3000x64.size (by rfl) y

set_option maxHeartbeats 1000000 in
/-- The body on whole staging buffers, the inputs' at contents x0 … x3 and the outputs' at anything, runs to the
    continuation with the inputs' as they were and the outputs' at out1_4, out1_5 of them. -/
theorem sound_kernel1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S3000x1 .f32) (harg3 : arg3.IsWhole) (arg4 : Memref sig .tc .vmem S1x64 .f32) (harg4 : arg4.IsWhole) (arg5 : Memref sig .tc .vmem S3000x64 .f32) (harg5 : arg5.IsWhole) (arg6 : Memref sig .tc .vmem S3000x64 .f32) (harg6 : arg6.IsWhole)
    (x0 : Vec F S3000x64 .f32) (x1 : Vec F S3000x64 .f32) (x2 : Vec F S3000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1 _)
  iexists _; isplitr
  swap; · iexact H5
  ipureintro
  exact View.read_writes_eq_canon _ _ _ (cover1 _)

/-- The proof data of pipeline 1 on core c: the arrays as the region finds them; after the body at point t each
    input's buffer at its block and each output's at what the body stores of the four blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
/-
  Region 2 of the program: the pallas_call that multiplies a block of 3000 rows of the node-feature matrix by the
  64 x 64 weight matrix. Stated at a parameter V, the contents of the core's buffers when the region is entered:
  the blocks its windows stage at a grid point, what the body leaves in the output window's buffer (its one store,
  of the product of the two loaded blocks), the body's triple, the pipeline's proof data and the body obligation.
-/
import proofs.«153885_j26242250178821_1_alg».proof.Proof.Gen.Kernel.Launch
import proofs.«153885_j26242250178821_1_alg».proof.Proof.Gen.Kernel.Skeleton
import proofs.«153885_j26242250178821_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's current buffer holds its block at every point, for any proof data whose array is V's and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's buffer holds the whole weight matrix at every point, fetched there or not: its block index
    never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 3000 x 64 block and the whole 64 x 64 matrix, as the rectangles the body loads and stores through. -/
abbrev r2_0 : Rect S3000x64 := Rect.unit (s := S3000x64) ![0, 0] S3000x64.size inb_S3000x64_S3000x64_0_0
abbrev r2_1 : Rect S64x64 := Rect.unit (s := S64x64) ![0, 0] S64x64.size inb_S64x64_S64x64_0_0

/-- The output window's buffer after the body: its one store, of the product of the row block and the weights. -/
def out2_2 (x0 : Vec F S3000x64 .f32) (x1 : Vec F S64x64 .f32) : Vec F S3000x64 .f32 :=
  View.canon [⟨r2_0, k2_pay1 (View.ld x0 r2_0) (View.ld x1 r2_1)⟩]

/-- The one store covers the buffer. -/
theorem cover2_2 (p0 : Vec F S3000x64 .f32) (y : S3000x64.Idx) :
    ∃ pc ∈ ([⟨r2_0, p0⟩] : List (View.Piece (Elt F) S3000x64 .f32)), y ∈ pc.1.set :=
  View.cover_of_tiled [⟨r2_0, p0⟩] S3000x64.size (by rfl) y

set_option maxHeartbeats 1000000 in
/-- The body on whole staging buffers, the inputs' at contents x0, x1 and the output's at anything, runs to the
    continuation with the inputs' as they were and the output's at out2_2 of them. -/
theorem sound_kernel2 (c : Dev nD) (E : Set ℕ) (i : grid2.Coords) (arg1 : Memref sig .tc .vmem S3000x64 .f32) (harg1 : arg1.IsWhole) (arg2 : Memref sig .tc .vmem S64x64 .f32) (harg2 : arg2.IsWhole) (arg3 : Memref sig .tc .vmem S3000x64 .f32) (harg3 : arg3.IsWhole)
    (x0 : Vec F S3000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core c: the arrays as the region finds them; after the body at point t each
    input's buffer at its block and the output's at the product of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRegion3.lean ====
/-
  Region 3 of the program: the pallas_call that combines, on a block of 3000 rows, the aggregated messages, the
  self-loop term (the transformed features scaled by the squared inverse root degree, a column) and the bias (a row),
  and stores the sum and its positive part. Stated at a parameter V, the contents of the core's buffers when the
  region is entered: the blocks its windows stage at a grid point, what the body leaves in each output window's
  buffer, the body's triple, the pipeline's proof data and the body obligation.
-/
import proofs.«153885_j26242250178821_1_alg».proof.Proof.Gen.Kernel.Launch
import proofs.«153885_j26242250178821_1_alg».proof.Proof.Gen.Kernel.Skeleton
import proofs.«153885_j26242250178821_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The aggregated-messages window's current buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The transformed-features window's current buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The degree-column window's current buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The bias window's buffer holds the whole bias row at every point, fetched there or not: its block index never moves. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole blocks, as the rectangles the body loads and stores through. -/
abbrev r3_0 : Rect S3000x64 := Rect.unit (s := S3000x64) ![0, 0] S3000x64.size inb_S3000x64_S3000x64_0_0
abbrev r3_1 : Rect S3000x1 := Rect.unit (s := S3000x1) ![0, 0] S3000x1.size inb_S3000x1_S3000x1_0_0
abbrev r3_2 : Rect S1x64 := Rect.unit (s := S1x64) ![0, 0] S1x64.size inb_S1x64_S1x64_0_0

/-- The first output window's buffer after the body: its one store, of aggregated + features * column + bias. -/
def out3_4 (x0 : Vec F S3000x64 .f32) (x1 : Vec F S3000x64 .f32) (x2 : Vec F S3000x1 .f32) (x3 : Vec F S1x64 .f32) : Vec F S3000x64 .f32 :=
  View.canon [⟨r3_0, k3_pay1 (View.ld x0 r3_0) (View.ld x1 r3_0) (View.ld x2 r3_1) (View.ld x3 r3_2)⟩]

/-- The second output window's buffer after the body: its one store, of the positive part of the same sum. -/
def out3_5 (x0 : Vec F S3000x64 .f32) (x1 : Vec F S3000x64 .f32) (x2 : Vec F S3000x1 .f32) (x3 : Vec F S1x64 .f32) : Vec F S3000x64 .f32 :=
  View.canon [⟨r3_0, k3_pay2 (View.ld x0 r3_0) (View.ld x1 r3_0) (View.ld x2 r3_1) (View.ld x3 r3_2)⟩]

/-- One whole-block store covers a buffer. -/
theorem cover3 (p0 : Vec F S3000x64 .f32) (y : S3000x64.Idx) :
    ∃ pc ∈ ([⟨r3_0, p0⟩] : List (View.Piece (Elt F) S3000x64 .f32)), y ∈ pc.1.set :=
  View.cover_of_tiled [⟨r3_0, p0⟩] S3000x64.size (by rfl) y

set_option maxHeartbeats 1000000 in
/-- The body on whole staging buffers, the inputs' at contents x0 … x3 and the outputs' at anything, runs to the
    continuation with the inputs' as they were and the outputs' at out3_4, out3_5 of them. -/
theorem sound_kernel3 (c : Dev nD) (E : Set ℕ) (i : grid3.Coords) (arg1 : Memref sig .tc .vmem S3000x64 .f32) (harg1 : arg1.IsWhole) (arg2 : Memref sig .tc .vmem S3000x64 .f32) (harg2 : arg2.IsWhole) (arg3 : Memref sig .tc .vmem S3000x1 .f32) (harg3 : arg3.IsWhole) (arg4 : Memref sig .tc .vmem S1x64 .f32) (harg4 : arg4.IsWhole) (arg5 : Memref sig .tc .vmem S3000x64 .f32) (harg5 : arg5.IsWhole) (arg6 : Memref sig .tc .vmem S3000x64 .f32) (harg6 : arg6.IsWhole)
    (x0 : Vec F S3000x64 .f32) (x1 : Vec F S3000x64 .f32) (x2 : Vec F S3000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__combine_kernel i arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3 _)
  iexists _; isplitr
  swap; · iexact H5
  ipureintro
  exact View.read_writes_eq_canon _ _ _ (cover3 _)

/-- The proof data of pipeline 3 on core c: the arrays as the region finds them; after the body at point t each
    input's buffer at its block and each output's at what the body stores of the four blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsRun.lean ====
/-
  The whole run of the program on a core: eight items in order — a stretch of host operations, the first
  multiplication region, a host stretch (gather, scale, scatter-add), the first combine region, the second
  multiplication region, a host stretch, the second combine region, and the host lines that stack the three results.
  The buffers' contents at each boundary are a fold from the launch memory: a host stretch applies its operations,
  a region leaves its output arrays at what its write-backs leave and everything else as entered. From the regions'
  body obligations every weakly fair execution terminates with every unscoped buffer at the last boundary's
  contents; the arguments walk back through the fold to their launch contents.
-/
import proofs.«153885_j26242250178821_1_alg».proof.Proof.BitsRegion0
import proofs.«153885_j26242250178821_1_alg».proof.Proof.BitsRegion1
import proofs.«153885_j26242250178821_1_alg».proof.Proof.BitsRegion2
import proofs.«153885_j26242250178821_1_alg».proof.Proof.BitsRegion3
import proofs.«153885_j26242250178821_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m ((c : Dev nD), b)
/-- After the first host stretch (the first multiplication's entry). -/
abbrev W1 : Dev nD → Valuation τ sig (Elt F) := fun c => StableHlo.after hostOps0 (W0 m c)
abbrev X1 : (c : Dev nD) → (b : Ref sig .tc) → Buf (Elt F) ((c : Thread nD τ).loc b) := fun c b => W1 m c b

/-- At region 0's exit: its arrays at what the pipeline leaves (the inputs as entered, each output's write-backs
    folded), every other buffer as entered. -/
def W2 (c : Dev nD) : Valuation τ sig (Elt F) :=
  Pipeline.withArrays spec0 c (W1 m c) fun w => (dat0 (X1 m) c).arrAt w cfg0.N
theorem W2_arr (c : Dev nD) (w : Fin cfg0.W) :
    W2 m c (Proc.devRef .tc (Pipeline.arrRef spec0 w)) = (dat0 (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev X2 : (c : Dev nD) → (b : Ref sig .tc) → Buf (Elt F) ((c : Thread nD τ).loc b) := fun c b => W2 m c b
theorem hF0 (c : Dev nD) (w : Fin cfg0.W) : (dat0 (X1 m) c).arrAt w cfg0.N = X2 m c (Pipeline.arrRef spec0 w) :=
  (W2_arr m c w).symm
theorem hrest0 (c : Dev nD) : ∀ b, b ∉ Finset.univ.image (Pipeline.arrRef spec0) → X2 m c b = X1 m c b :=
  fun b hb => W2_of_ne m c b fun w e => hb (Finset.mem_image.mpr ⟨w, Finset.mem_univ _, e⟩)
/-- A buffer that is no output of region 0 leaves it as it entered: an input window's array is never written back,
    and no other buffer is touched. -/
theorem W2_keep (c : Dev nD) (b : Ref sig .tc) (hb : b ∉ ([main_v29] : List (Ref sig .tc))) :
    W2 m c (Proc.devRef .tc b) = W1 m c (Proc.devRef .tc b) := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => exact absurd (List.mem_cons_self) hb
    exact (W2_arr m c w).trans (((dat0 (X1 m) c).arrAt_in w hin _).trans (A_eq0 (X1 m) c w))
  · exact W2_of_ne m c b fun w e => h ⟨w, e⟩

/-- After the second host stretch (the first combine's entry). -/
abbrev W3 : Dev nD → Valuation τ sig (Elt F) := fun c => StableHlo.after hostOps1 (W2 m c)
abbrev X3 : (c : Dev nD) → (b : Ref sig .tc) → Buf (Elt F) ((c : Thread nD τ).loc b) := fun c b => W3 m c b

/-- At region 1's exit: its arrays at what the pipeline leaves (the inputs as entered, each output's write-backs
    folded), every other buffer as entered. -/
def W4 (c : Dev nD) : Valuation τ sig (Elt F) :=
  Pipeline.withArrays spec1 c (W3 m c) fun w => (dat1 (X3 m) c).arrAt w cfg1.N
theorem W4_arr (c : Dev nD) (w : Fin cfg1.W) :
    W4 m c (Proc.devRef .tc (Pipeline.arrRef spec1 w)) = (dat1 (X3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev X4 : (c : Dev nD) → (b : Ref sig .tc) → Buf (Elt F) ((c : Thread nD τ).loc b) := fun c b => W4 m c b
theorem hF1 (c : Dev nD) (w : Fin cfg1.W) : (dat1 (X3 m) c).arrAt w cfg1.N = X4 m c (Pipeline.arrRef spec1 w) :=
  (W4_arr m c w).symm
theorem hrest1 (c : Dev nD) : ∀ b, b ∉ Finset.univ.image (Pipeline.arrRef spec1) → X4 m c b = X3 m c b :=
  fun b hb => W4_of_ne m c b fun w e => hb (Finset.mem_image.mpr ⟨w, Finset.mem_univ _, e⟩)
/-- A buffer that is no output of region 1 leaves it as it entered: an input window's array is never written back,
    and no other buffer is touched. -/
theorem W4_keep (c : Dev nD) (b : Ref sig .tc) (hb : b ∉ ([main_v44_0, main_v44_1] : List (Ref sig .tc))) :
    W4 m c (Proc.devRef .tc b) = W3 m c (Proc.devRef .tc b) := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => rfl
      | ⟨4, _⟩ => exact absurd (List.mem_cons_self) hb
      | ⟨5, _⟩ => exact absurd (List.mem_cons_of_mem _ List.mem_cons_self) hb
    exact (W4_arr m c w).trans (((dat1 (X3 m) c).arrAt_in w hin _).trans (A_eq1 (X3 m) c w))
  · exact W4_of_ne m c b fun w e => h ⟨w, e⟩

/-- At region 2's exit: its arrays at what the pipeline leaves (the inputs as entered, each output's write-backs
    folded), every other buffer as entered. -/
def W5 (c : Dev nD) : Valuation τ sig (Elt F) :=
  Pipeline.withArrays spec2 c (W4 m c) fun w => (dat2 (X4 m) c).arrAt w cfg2.N
theorem W5_arr (c : Dev nD) (w : Fin cfg2.W) :
    W5 m c (Proc.devRef .tc (Pipeline.arrRef spec2 w)) = (dat2 (X4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev X5 : (c : Dev nD) → (b : Ref sig .tc) → Buf (Elt F) ((c : Thread nD τ).loc b) := fun c b => W5 m c b
theorem hF2 (c : Dev nD) (w : Fin cfg2.W) : (dat2 (X4 m) c).arrAt w cfg2.N = X5 m c (Pipeline.arrRef spec2 w) :=
  (W5_arr m c w).symm
theorem hrest2 (c : Dev nD) : ∀ b, b ∉ Finset.univ.image (Pipeline.arrRef spec2) → X5 m c b = X4 m c b :=
  fun b hb => W5_of_ne m c b fun w e => hb (Finset.mem_image.mpr ⟨w, Finset.mem_univ _, e⟩)
/-- A buffer that is no output of region 2 leaves it as it entered: an input window's array is never written back,
    and no other buffer is touched. -/
theorem W5_keep (c : Dev nD) (b : Ref sig .tc) (hb : b ∉ ([main_v45] : List (Ref sig .tc))) :
    W5 m c (Proc.devRef .tc b) = W4 m c (Proc.devRef .tc b) := by
  by_cases h : ∃ w, Pipeline.arrRef spec2 w = b
  · obtain ⟨w, rfl⟩ := h
    have hin : (cfg2.win w).isOut = false := by
      match w with
      | ⟨0, _⟩ => rfl
      | ⟨1, _⟩ => rfl
      | ⟨2, _⟩ => exact absurd (List.mem_cons_self) hb
    exact (W5_arr m c w).trans (((dat2 (X4 m) c).arrAt_in w hin _).trans (A_eq2 (X4 m) c w))
  · exact W5_of_ne m c b fun w e => h ⟨w, e⟩

/-- After the third host stretch (the second combine's entry). -/
abbrev W6 : Dev nD → Valuation τ sig (Elt F) := fun c => StableHlo.after hostOps3 (W5 m c)
abbrev X6 : (c : Dev nD) → (b : Ref sig .tc) → Buf (Elt F) ((c : Thread nD τ).loc b) := fun c b => W6 m c b

/-- At region 3's exit: its arrays at what the pipeline leaves (the inputs as entered, each output's write-backs
    folded), every other buffer as entered. -/
def W7 (c : Dev nD) : Valuation τ sig (Elt F) :=
  Pipeline.withArrays spec3 c (W6 m c) fun w => (dat3 (X6 m) c).arrAt w cfg3.N
theorem W7_arr (c : Dev nD) (w : Fin cfg3.W) :
    W7 m c (Proc.devRef .tc (Pipeline.arrRef spec3 w)) = (dat3 (X6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references. -/
abbrev X7 : (c : Dev nD) → (b : Ref sig .tc) → Buf (Elt F) ((c : Thread nD τ).loc b) := fun c b => W7 m c b
theorem hF3 (c : Dev nD) (w : Fin cfg3.W) : (dat3 (X6 m) c).arrAt w cfg3.N = X7 m c (Pipeline.arrRef spec3 w) :=
  (W7_arr m c w).symm
theorem hrest3 (c : Dev nD) : ∀ b, b ∉ Finset.univ.image (Pipeline.arrRef spec3) → X7 m c b = X6 m c b :=
  fun b hb => W7_of_ne m c b fun w e => hb (Finset.mem_image.mpr ⟨w, Finset.mem_univ _, e⟩)
/-- A buffer that is no output of region 3 leaves it as it entered: an input window's array is never written back,
    and no other buffer is touched. -/
theorem W7_keep (c : Dev nD) (b : Ref sig .tc) (hb : b ∉ ([main_v60_0, main_v60_1] : List (Ref sig .tc))) :
    W7 m c (Proc.devRef .tc b) = W6 m c (Proc.devRef .tc b) := by
  by_cases h : ∃ w, Pipeline.arrRef spec3 w = b
  · obtain ⟨w, rfl⟩ := h
    have hin : (cfg3.win w).isOut = false := by
      match w with
      | ⟨0, _⟩ => rfl
      | ⟨1, _⟩ => rfl
      | ⟨2, _⟩ => rfl
      | ⟨3, _⟩ => rfl
      | ⟨4, _⟩ => exact absurd (List.mem_cons_self) hb
      | ⟨5, _⟩ => exact absurd (List.mem_cons_of_mem _ List.mem_cons_self) hb
    exact (W7_arr m c w).trans (((dat3 (X6 m) c).arrAt_in w hin _).trans (A_eq3 (X6 m) c w))
  · exact W7_of_ne m c b fun w e => h ⟨w, e⟩

/-- After the last host stretch: the end. -/
abbrev W8 : Dev nD → Valuation τ sig (Elt F) := fun c => StableHlo.after hostOps4 (W7 m c)

/-- A buffer that no host operation writes and that is no region's output ends as launched. -/
theorem W8_kept (c : Dev nD) (b : Ref sig .tc) (h0 : b ∉ hostOps0_W) (h1 : b ∉ hostOps1_W) (h3 : b ∉ hostOps3_W) (h4 : b ∉ hostOps4_W)
    (hr0 : b ∉ ([main_v29] : List (Ref sig .tc))) (hr1 : b ∉ ([main_v44_0, main_v44_1] : List (Ref sig .tc)))
    (hr2 : b ∉ ([main_v45] : List (Ref sig .tc))) (hr3 : b ∉ ([main_v60_0, main_v60_1] : List (Ref sig .tc))) :
    W8 m c (Proc.devRef .tc b) = m ((c : Thread nD τ).loc b) :=
  calc W8 m c (Proc.devRef .tc b)
    _ = W7 m c (Proc.devRef .tc b) := StableHlo.after_of_writes_sub hostOps4 _ hostOps4_writes h4
    _ = W6 m c (Proc.devRef .tc b) := W7_keep m c b hr3
    _ = W5 m c (Proc.devRef .tc b) := StableHlo.after_of_writes_sub hostOps3 _ hostOps3_writes h3
    _ = W4 m c (Proc.devRef .tc b) := W5_keep m c b hr2
    _ = W3 m c (Proc.devRef .tc b) := W4_keep m c b hr1
    _ = W2 m c (Proc.devRef .tc b) := StableHlo.after_of_writes_sub hostOps1 _ hostOps1_writes h1
    _ = W1 m c (Proc.devRef .tc b) := W2_keep m c b hr0
    _ = W0 m c (Proc.devRef .tc b) := StableHlo.after_of_writes_sub hostOps0 _ hostOps0_writes h0
    _ = m ((c : Thread nD τ).loc b) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (X1 m) c
  | ⟨1, _⟩ => fun c => dat1 (X3 m) c
  | ⟨2, _⟩ => fun c => dat2 (X4 m) c
  | ⟨3, _⟩ => fun c => dat3 (X6 m) c
/-- No core owes another anything: no level is assigned. -/
abbrev noLv : GSem nD τ sig → Finset Unit := fun _ => ∅
abbrev lv0 : GSem nD τ sig → Unit → ℕ := fun _ _ => 0
/-- What rides beside the buffers through every item: the core's generator register at some state and what it owes,
    nothing. -/
abbrev rest (c : Dev nD) : sProp 𝕄 := iprop((∃ r, prngReg c r) ∗ ∃ W, owes (c : Thread nD τ) (0 : CellTallies nD τ sig Unit) W)
/-- A host stretch as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLv lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tend (c : Dev nD) : sProp 𝕄 := iprop(StableHlo.held (c : Thread nD τ) (Pipeline.ucRefs τ sig) (W8 m c) ∗ ∃ r, prngReg c r)

/-! ## The regions as items -/

set_option backward.isDefEq.respectTransparency.types false in
/-- Region 0 over the thread state: entered with every unscoped buffer at W1, left at W2. Its arrays are
    split out of the unscoped buffers at entry and put back at the exit contents; the generator register goes into
    the pipeline's invariant and comes out; nothing is owed; the body has no semaphore of its own. -/
def reg0 : Pipeline.RegionSeg (pcfgs (F := F)) Gen.adm (pdats m) () defs₀ Variants.none noLv lv0 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ noLv lv0 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W3, left at W4. Its arrays are
    split out of the unscoped buffers at entry and put back at the exit contents; the generator register goes into
    the pipeline's invariant and comes out; nothing is owed; the body has no semaphore of its own. -/
def reg1 : Pipeline.RegionSeg (pcfgs (F := F)) Gen.adm (pdats m) () defs₀ Variants.none noLv lv0 1 where
  win := launch1.win.to₀
  block_pos := launch1.block_pos
  stage_whole := launch1.stage_whole
  K := PEmpty
  osem k := k.elim
  ho := Pipeline.OwnSemFacts.none _
  hbody c := (body_obligation1 (X3 m) c).loose
  hwaits := Pipeline.hwaits_of_owed_zero _ _ _ _ noLv lv0 1 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (X3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W4, left at W5. Its arrays are
    split out of the unscoped buffers at entry and put back at the exit contents; the generator register goes into
    the pipeline's invariant and comes out; nothing is owed; the body has no semaphore of its own. -/
def reg2 : Pipeline.RegionSeg (pcfgs (F := F)) Gen.adm (pdats m) () defs₀ Variants.none noLv lv0 2 where
  win := launch2.win.to₀
  block_pos := launch2.block_pos
  stage_whole := launch2.stage_whole
  K := PEmpty
  osem k := k.elim
  ho := Pipeline.OwnSemFacts.none _
  hbody c := (body_obligation2 (X4 m) c).loose
  hwaits := Pipeline.hwaits_of_owed_zero _ _ _ _ noLv lv0 2 fun _ _ => rfl
  pre c := iprop(StableHlo.held (c : Thread nD τ) (Pipeline.ucRefs τ sig) (W4 m c) ∗ rest c)
  post c := iprop(StableHlo.held (c : Thread nD τ) (Pipeline.ucRefs τ sig) (W5 m c) ∗ rest c)
  X c := iprop(∃ r, prngReg c r)
  Y c := iprop(∃ r, prngReg c r)
  Z c := Pipeline.unscopedRest (Ix := Unit) (Name := ℕ) (U := UR sig nD τ) (Lvl := ℕ) spec2 c (X4 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (X4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (X4 m c) (X5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W6, left at W7. Its arrays are
    split out of the unscoped buffers at entry and put back at the exit contents; the generator register goes into
    the pipeline's invariant and comes out; nothing is owed; the body has no semaphore of its own. -/
def reg3 : Pipeline.RegionSeg (pcfgs (F := F)) Gen.adm (pdats m) () defs₀ Variants.none noLv lv0 3 where
  win := launch3.win.to₀
  block_pos := launch3.block_pos
  stage_whole := launch3.stage_whole
  K := PEmpty
  osem k := k.elim
  ho := Pipeline.OwnSemFacts.none _
  hbody c := (body_obligation3 (X6 m) c).loose
  hwaits := Pipeline.hwaits_of_owed_zero _ _ _ _ noLv lv0 3 fun _ _ => rfl
  pre c := iprop(StableHlo.held (c : Thread nD τ) (Pipeline.ucRefs τ sig) (W6 m c) ∗ rest c)
  post c := iprop(StableHlo.held (c : Thread nD τ) (Pipeline.ucRefs τ sig) (W7 m c) ∗ rest c)
  X c := iprop(∃ r, prngReg c r)
  Y c := iprop(∃ r, prngReg c r)
  Z c := Pipeline.unscopedRest (Ix := Unit) (Name := ℕ) (U := UR sig nD τ) (Lvl := ℕ) spec3 c (X6 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (X6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (X6 m c) (X7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the run -/

/-- The eight items in order. -/
abbrev items : List (Pipeline.Seg (pcfgs (F := F)) Gen.adm (pdats m) () defs₀ Variants.none noLv lv0) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .host (hseg hostOps4 hostOps4_sub hostOps4_fresh (W7 m)) ]

set_option backward.isDefEq.respectTransparency.types false in
/-- At the compiled mesh, from any memory with zero counters, every weakly fair execution of the program on the
    TensorCores terminates, nothing faulting, and in every final state every unscoped buffer holds the last
    boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) Gen.adm (pdats m) () cellOf_inj emb₁ defs₀ Variants.none noLv lv0 m ρ main (items m)
    (fun c Q => by
      rewrite [main_chain c, Seg.run_eq_chain,
        show (items m).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := Tend m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ rest c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach noLv lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W8_kept m c main_arg0 (by decide) (by decide) (by decide) (by decide) (by decide) (by decide) (by decide) (by decide)),
     (h c _ (mem_uc main_arg1 (by decide))).trans (W8_kept m c main_arg1 (by decide) (by decide) (by decide) (by decide) (by decide) (by decide) (by decide) (by decide)),
     (h c _ (mem_uc main_arg2 (by decide))).trans (W8_kept m c main_arg2 (by decide) (by decide) (by decide) (by decide) (by decide) (by decide) (by decide) (by decide)),
     (h c _ (mem_uc main_arg3 (by decide))).trans (W8_kept m c main_arg3 (by decide) (by decide) (by decide) (by decide) (by decide) (by decide) (by decide) (by decide)),
     (h c _ (mem_uc main_arg4 (by decide))).trans (W8_kept m c main_arg4 (by decide) (by decide) (by decide) (by decide) (by decide) (by decide) (by decide) (by decide)),
     (h c _ (mem_uc main_arg5 (by decide))).trans (W8_kept m c main_arg5 (by decide) (by decide) (by decide) (by decide) (by decide) (by decide) (by decide) (by decide)),
     (h c _ (mem_uc main_arg6 (by decide))).trans (W8_kept m c main_arg6 (by decide) (by decide) (by decide) (by decide) (by decide) (by decide) (by decide) (by decide)),
     (h c _ (mem_uc main_arg7 (by decide))).trans (W8_kept m c main_arg7 (by decide) (by decide) (by decide) (by decide) (by decide) (by decide) (by decide) (by decide))⟩)
    (run_all m ρ)

end Cert.Kernel.Hand

end
-- ==== Proof.IdealRegion0.lean ====
/-
  Region 0 of the program: the pallas_call that multiplies a block of 3000 rows of the node-feature matrix by the
  64 x 64 weight matrix. Stated at a parameter V, the contents of the core's buffers when the region is entered:
  the blocks its windows stage at a grid point, what the body leaves in the output window's buffer (its one store,
  of the product of the two loaded blocks), the body's triple, the pipeline's proof data and the body obligation.
-/
import proofs.«153885_j26242250178821_1_alg».proof.Proof.Gen.KernelIdeal.Launch
import proofs.«153885_j26242250178821_1_alg».proof.Proof.Gen.KernelIdeal.Skeleton
import proofs.«153885_j26242250178821_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's current buffer holds its block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the whole weight matrix at every point, fetched there or not: its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 3000 x 64 block and the whole 64 x 64 matrix, as the rectangles the body loads and stores through. -/
abbrev r0_0 : Rect S3000x64 := Rect.unit (s := S3000x64) ![0, 0] S3000x64.size inb_S3000x64_S3000x64_0_0
abbrev r0_1 : Rect S64x64 := Rect.unit (s := S64x64) ![0, 0] S64x64.size inb_S64x64_S64x64_0_0

/-- The output window's buffer after the body: its one store, of the product of the row block and the weights. -/
def out0_2 (x0 : Vec F S3000x64 .f32) (x1 : Vec F S64x64 .f32) : Vec F S3000x64 .f32 :=
  View.canon [⟨r0_0, k0_pay1 (View.ld x0 r0_0) (View.ld x1 r0_1)⟩]

/-- The one store covers the buffer. -/
theorem cover0_2 (p0 : Vec F S3000x64 .f32) (y : S3000x64.Idx) :
    ∃ pc ∈ ([⟨r0_0, p0⟩] : List (View.Piece (Elt F) S3000x64 .f32)), y ∈ pc.1.set :=
  View.cover_of_tiled [⟨r0_0, p0⟩] S3000x64.size (by rfl) y

set_option maxHeartbeats 1000000 in
/-- The body on whole staging buffers, the inputs' at contents x0, x1 and the output's at anything, runs to the
    continuation with the inputs' as they were and the output's at out0_2 of them. -/
theorem sound_kernel0 (c : Dev nD) (E : Set ℕ) (i : grid0.Coords) (arg1 : Memref sig .tc .vmem S3000x64 .f32) (harg1 : arg1.IsWhole) (arg2 : Memref sig .tc .vmem S64x64 .f32) (harg2 : arg2.IsWhole) (arg3 : Memref sig .tc .vmem S3000x64 .f32) (harg3 : arg3.IsWhole)
    (x0 : Vec F S3000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body at point t each
    input's buffer at its block and the output's at the product of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/-
  Region 1 of the program: the pallas_call that combines, on a block of 3000 rows, the aggregated messages, the
  self-loop term (the transformed features scaled by the squared inverse root degree, a column) and the bias (a row),
  and stores the sum and its positive part. Stated at a parameter V, the contents of the core's buffers when the
  region is entered: the blocks its windows stage at a grid point, what the body leaves in each output window's
  buffer, the body's triple, the pipeline's proof data and the body obligation.
-/
import proofs.«153885_j26242250178821_1_alg».proof.Proof.Gen.KernelIdeal.Launch
import proofs.«153885_j26242250178821_1_alg».proof.Proof.Gen.KernelIdeal.Skeleton
import proofs.«153885_j26242250178821_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated-messages window's current buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The transformed-features window's current buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The degree-column window's current buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias window's buffer holds the whole bias row at every point, fetched there or not: its block index never moves. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole blocks, as the rectangles the body loads and stores through. -/
abbrev r1_0 : Rect S3000x64 := Rect.unit (s := S3000x64) ![0, 0] S3000x64.size inb_S3000x64_S3000x64_0_0
abbrev r1_1 : Rect S3000x1 := Rect.unit (s := S3000x1) ![0, 0] S3000x1.size inb_S3000x1_S3000x1_0_0
abbrev r1_2 : Rect S1x64 := Rect.unit (s := S1x64) ![0, 0] S1x64.size inb_S1x64_S1x64_0_0

/-- The first output window's buffer after the body: its one store, of aggregated + features * column + bias. -/
def out1_4 (x0 : Vec F S3000x64 .f32) (x1 : Vec F S3000x64 .f32) (x2 : Vec F S3000x1 .f32) (x3 : Vec F S1x64 .f32) : Vec F S3000x64 .f32 :=
  View.canon [⟨r1_0, k1_pay1 (View.ld x0 r1_0) (View.ld x1 r1_0) (View.ld x2 r1_1) (View.ld x3 r1_2)⟩]

/-- The second output window's buffer after the body: its one store, of the positive part of the same sum. -/
def out1_5 (x0 : Vec F S3000x64 .f32) (x1 : Vec F S3000x64 .f32) (x2 : Vec F S3000x1 .f32) (x3 : Vec F S1x64 .f32) : Vec F S3000x64 .f32 :=
  View.canon [⟨r1_0, k1_pay2 (View.ld x0 r1_0) (View.ld x1 r1_0) (View.ld x2 r1_1) (View.ld x3 r1_2)⟩]

/-- One whole-block store covers a buffer. -/
theorem cover1 (p0 : Vec F S3000x64 .f32) (y : S3000x64.Idx) :
    ∃ pc ∈ ([⟨r1_0, p0⟩] : List (View.Piece (Elt F) S3000x64 .f32)), y ∈ pc.1.set :=
  View.cover_of_tiled [⟨r1_0, p0⟩] S3000x64.size (by rfl) y

set_option maxHeartbeats 1000000 in
/-- The body on whole staging buffers, the inputs' at contents x0 … x3 and the outputs' at anything, runs to the
    continuation with the inputs' as they were and the outputs' at out1_4, out1_5 of them. -/
theorem sound_kernel1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S3000x1 .f32) (harg3 : arg3.IsWhole) (arg4 : Memref sig .tc .vmem S1x64 .f32) (harg4 : arg4.IsWhole) (arg5 : Memref sig .tc .vmem S3000x64 .f32) (harg5 : arg5.IsWhole) (arg6 : Memref sig .tc .vmem S3000x64 .f32) (harg6 : arg6.IsWhole)
    (x0 : Vec F S3000x64 .f32) (x1 : Vec F S3000x64 .f32) (x2 : Vec F S3000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1 _)
  iexists _; isplitr
  swap; · iexact H5
  ipureintro
  exact View.read_writes_eq_canon _ _ _ (cover1 _)

/-- The proof data of pipeline 1 on core c: the arrays as the region finds them; after the body at point t each
    input's buffer at its block and each output's at what the body stores of the four blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
/-
  Region 2 of the program: the pallas_call that multiplies a block of 3000 rows of the node-feature matrix by the
  64 x 64 weight matrix. Stated at a parameter V, the contents of the core's buffers when the region is entered:
  the blocks its windows stage at a grid point, what the body leaves in the output window's buffer (its one store,
  of the product of the two loaded blocks), the body's triple, the pipeline's proof data and the body obligation.
-/
import proofs.«153885_j26242250178821_1_alg».proof.Proof.Gen.KernelIdeal.Launch
import proofs.«153885_j26242250178821_1_alg».proof.Proof.Gen.KernelIdeal.Skeleton
import proofs.«153885_j26242250178821_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's current buffer holds its block at every point, for any proof data whose array is V's and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's buffer holds the whole weight matrix at every point, fetched there or not: its block index
    never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 3000 x 64 block and the whole 64 x 64 matrix, as the rectangles the body loads and stores through. -/
abbrev r2_0 : Rect S3000x64 := Rect.unit (s := S3000x64) ![0, 0] S3000x64.size inb_S3000x64_S3000x64_0_0
abbrev r2_1 : Rect S64x64 := Rect.unit (s := S64x64) ![0, 0] S64x64.size inb_S64x64_S64x64_0_0

/-- The output window's buffer after the body: its one store, of the product of the row block and the weights. -/
def out2_2 (x0 : Vec F S3000x64 .f32) (x1 : Vec F S64x64 .f32) : Vec F S3000x64 .f32 :=
  View.canon [⟨r2_0, k2_pay1 (View.ld x0 r2_0) (View.ld x1 r2_1)⟩]

/-- The one store covers the buffer. -/
theorem cover2_2 (p0 : Vec F S3000x64 .f32) (y : S3000x64.Idx) :
    ∃ pc ∈ ([⟨r2_0, p0⟩] : List (View.Piece (Elt F) S3000x64 .f32)), y ∈ pc.1.set :=
  View.cover_of_tiled [⟨r2_0, p0⟩] S3000x64.size (by rfl) y

set_option maxHeartbeats 1000000 in
/-- The body on whole staging buffers, the inputs' at contents x0, x1 and the output's at anything, runs to the
    continuation with the inputs' as they were and the output's at out2_2 of them. -/
theorem sound_kernel2 (c : Dev nD) (E : Set ℕ) (i : grid2.Coords) (arg1 : Memref sig .tc .vmem S3000x64 .f32) (harg1 : arg1.IsWhole) (arg2 : Memref sig .tc .vmem S64x64 .f32) (harg2 : arg2.IsWhole) (arg3 : Memref sig .tc .vmem S3000x64 .f32) (harg3 : arg3.IsWhole)
    (x0 : Vec F S3000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core c: the arrays as the region finds them; after the body at point t each
    input's buffer at its block and the output's at the product of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRegion3.lean ====
/-
  Region 3 of the program: the pallas_call that combines, on a block of 3000 rows, the aggregated messages, the
  self-loop term (the transformed features scaled by the squared inverse root degree, a column) and the bias (a row),
  and stores the sum and its positive part. Stated at a parameter V, the contents of the core's buffers when the
  region is entered: the blocks its windows stage at a grid point, what the body leaves in each output window's
  buffer, the body's triple, the pipeline's proof data and the body obligation.
-/
import proofs.«153885_j26242250178821_1_alg».proof.Proof.Gen.KernelIdeal.Launch
import proofs.«153885_j26242250178821_1_alg».proof.Proof.Gen.KernelIdeal.Skeleton
import proofs.«153885_j26242250178821_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The aggregated-messages window's current buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The transformed-features window's current buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The degree-column window's current buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The bias window's buffer holds the whole bias row at every point, fetched there or not: its block index never moves. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole blocks, as the rectangles the body loads and stores through. -/
abbrev r3_0 : Rect S3000x64 := Rect.unit (s := S3000x64) ![0, 0] S3000x64.size inb_S3000x64_S3000x64_0_0
abbrev r3_1 : Rect S3000x1 := Rect.unit (s := S3000x1) ![0, 0] S3000x1.size inb_S3000x1_S3000x1_0_0
abbrev r3_2 : Rect S1x64 := Rect.unit (s := S1x64) ![0, 0] S1x64.size inb_S1x64_S1x64_0_0

/-- The first output window's buffer after the body: its one store, of aggregated + features * column + bias. -/
def out3_4 (x0 : Vec F S3000x64 .f32) (x1 : Vec F S3000x64 .f32) (x2 : Vec F S3000x1 .f32) (x3 : Vec F S1x64 .f32) : Vec F S3000x64 .f32 :=
  View.canon [⟨r3_0, k3_pay1 (View.ld x0 r3_0) (View.ld x1 r3_0) (View.ld x2 r3_1) (View.ld x3 r3_2)⟩]

/-- The second output window's buffer after the body: its one store, of the positive part of the same sum. -/
def out3_5 (x0 : Vec F S3000x64 .f32) (x1 : Vec F S3000x64 .f32) (x2 : Vec F S3000x1 .f32) (x3 : Vec F S1x64 .f32) : Vec F S3000x64 .f32 :=
  View.canon [⟨r3_0, k3_pay2 (View.ld x0 r3_0) (View.ld x1 r3_0) (View.ld x2 r3_1) (View.ld x3 r3_2)⟩]

/-- One whole-block store covers a buffer. -/
theorem cover3 (p0 : Vec F S3000x64 .f32) (y : S3000x64.Idx) :
    ∃ pc ∈ ([⟨r3_0, p0⟩] : List (View.Piece (Elt F) S3000x64 .f32)), y ∈ pc.1.set :=
  View.cover_of_tiled [⟨r3_0, p0⟩] S3000x64.size (by rfl) y

set_option maxHeartbeats 1000000 in
/-- The body on whole staging buffers, the inputs' at contents x0 … x3 and the outputs' at anything, runs to the
    continuation with the inputs' as they were and the outputs' at out3_4, out3_5 of them. -/
theorem sound_kernel3 (c : Dev nD) (E : Set ℕ) (i : grid3.Coords) (arg1 : Memref sig .tc .vmem S3000x64 .f32) (harg1 : arg1.IsWhole) (arg2 : Memref sig .tc .vmem S3000x64 .f32) (harg2 : arg2.IsWhole) (arg3 : Memref sig .tc .vmem S3000x1 .f32) (harg3 : arg3.IsWhole) (arg4 : Memref sig .tc .vmem S1x64 .f32) (harg4 : arg4.IsWhole) (arg5 : Memref sig .tc .vmem S3000x64 .f32) (harg5 : arg5.IsWhole) (arg6 : Memref sig .tc .vmem S3000x64 .f32) (harg6 : arg6.IsWhole)
    (x0 : Vec F S3000x64 .f32) (x1 : Vec F S3000x64 .f32) (x2 : Vec F S3000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__combine_kernel i arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3 _)
  iexists _; isplitr
  swap; · iexact H5
  ipureintro
  exact View.read_writes_eq_canon _ _ _ (cover3 _)

/-- The proof data of pipeline 3 on core c: the arrays as the region finds them; after the body at point t each
    input's buffer at its block and each output's at what the body stores of the four blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealRun.lean ====
/-
  The whole run of the program on a core: eight items in order — a stretch of host operations, the first
  multiplication region, a host stretch (gather, scale, scatter-add), the first combine region, the second
  multiplication region, a host stretch, the second combine region, and the host lines that stack the three results.
  The buffers' contents at each boundary are a fold from the launch memory: a host stretch applies its operations,
  a region leaves its output arrays at what its write-backs leave and everything else as entered. From the regions'
  body obligations every weakly fair execution terminates with every unscoped buffer at the last boundary's
  contents; the arguments walk back through the fold to their launch contents.
-/
import proofs.«153885_j26242250178821_1_alg».proof.Proof.IdealRegion0
import proofs.«153885_j26242250178821_1_alg».proof.Proof.IdealRegion1
import proofs.«153885_j26242250178821_1_alg».proof.Proof.IdealRegion2
import proofs.«153885_j26242250178821_1_alg».proof.Proof.IdealRegion3
import proofs.«153885_j26242250178821_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m ((c : Dev nD), b)
/-- After the first host stretch (the first multiplication's entry). -/
abbrev W1 : Dev nD → Valuation τ sig (Elt F) := fun c => StableHlo.after hostOps0 (W0 m c)
abbrev X1 : (c : Dev nD) → (b : Ref sig .tc) → Buf (Elt F) ((c : Thread nD τ).loc b) := fun c b => W1 m c b

/-- At region 0's exit: its arrays at what the pipeline leaves (the inputs as entered, each output's write-backs
    folded), every other buffer as entered. -/
def W2 (c : Dev nD) : Valuation τ sig (Elt F) :=
  Pipeline.withArrays spec0 c (W1 m c) fun w => (dat0 (X1 m) c).arrAt w cfg0.N
theorem W2_arr (c : Dev nD) (w : Fin cfg0.W) :
    W2 m c (Proc.devRef .tc (Pipeline.arrRef spec0 w)) = (dat0 (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev X2 : (c : Dev nD) → (b : Ref sig .tc) → Buf (Elt F) ((c : Thread nD τ).loc b) := fun c b => W2 m c b
theorem hF0 (c : Dev nD) (w : Fin cfg0.W) : (dat0 (X1 m) c).arrAt w cfg0.N = X2 m c (Pipeline.arrRef spec0 w) :=
  (W2_arr m c w).symm
theorem hrest0 (c : Dev nD) : ∀ b, b ∉ Finset.univ.image (Pipeline.arrRef spec0) → X2 m c b = X1 m c b :=
  fun b hb => W2_of_ne m c b fun w e => hb (Finset.mem_image.mpr ⟨w, Finset.mem_univ _, e⟩)
/-- A buffer that is no output of region 0 leaves it as it entered: an input window's array is never written back,
    and no other buffer is touched. -/
theorem W2_keep (c : Dev nD) (b : Ref sig .tc) (hb : b ∉ ([main_v29] : List (Ref sig .tc))) :
    W2 m c (Proc.devRef .tc b) = W1 m c (Proc.devRef .tc b) := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => exact absurd (List.mem_cons_self) hb
    exact (W2_arr m c w).trans (((dat0 (X1 m) c).arrAt_in w hin _).trans (A_eq0 (X1 m) c w))
  · exact W2_of_ne m c b fun w e => h ⟨w, e⟩

/-- After the second host stretch (the first combine's entry). -/
abbrev W3 : Dev nD → Valuation τ sig (Elt F) := fun c => StableHlo.after hostOps1 (W2 m c)
abbrev X3 : (c : Dev nD) → (b : Ref sig .tc) → Buf (Elt F) ((c : Thread nD τ).loc b) := fun c b => W3 m c b

/-- At region 1's exit: its arrays at what the pipeline leaves (the inputs as entered, each output's write-backs
    folded), every other buffer as entered. -/
def W4 (c : Dev nD) : Valuation τ sig (Elt F) :=
  Pipeline.withArrays spec1 c (W3 m c) fun w => (dat1 (X3 m) c).arrAt w cfg1.N
theorem W4_arr (c : Dev nD) (w : Fin cfg1.W) :
    W4 m c (Proc.devRef .tc (Pipeline.arrRef spec1 w)) = (dat1 (X3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev X4 : (c : Dev nD) → (b : Ref sig .tc) → Buf (Elt F) ((c : Thread nD τ).loc b) := fun c b => W4 m c b
theorem hF1 (c : Dev nD) (w : Fin cfg1.W) : (dat1 (X3 m) c).arrAt w cfg1.N = X4 m c (Pipeline.arrRef spec1 w) :=
  (W4_arr m c w).symm
theorem hrest1 (c : Dev nD) : ∀ b, b ∉ Finset.univ.image (Pipeline.arrRef spec1) → X4 m c b = X3 m c b :=
  fun b hb => W4_of_ne m c b fun w e => hb (Finset.mem_image.mpr ⟨w, Finset.mem_univ _, e⟩)
/-- A buffer that is no output of region 1 leaves it as it entered: an input window's array is never written back,
    and no other buffer is touched. -/
theorem W4_keep (c : Dev nD) (b : Ref sig .tc) (hb : b ∉ ([main_v44_0, main_v44_1] : List (Ref sig .tc))) :
    W4 m c (Proc.devRef .tc b) = W3 m c (Proc.devRef .tc b) := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => rfl
      | ⟨4, _⟩ => exact absurd (List.mem_cons_self) hb
      | ⟨5, _⟩ => exact absurd (List.mem_cons_of_mem _ List.mem_cons_self) hb
    exact (W4_arr m c w).trans (((dat1 (X3 m) c).arrAt_in w hin _).trans (A_eq1 (X3 m) c w))
  · exact W4_of_ne m c b fun w e => h ⟨w, e⟩

/-- At region 2's exit: its arrays at what the pipeline leaves (the inputs as entered, each output's write-backs
    folded), every other buffer as entered. -/
def W5 (c : Dev nD) : Valuation τ sig (Elt F) :=
  Pipeline.withArrays spec2 c (W4 m c) fun w => (dat2 (X4 m) c).arrAt w cfg2.N
theorem W5_arr (c : Dev nD) (w : Fin cfg2.W) :
    W5 m c (Proc.devRef .tc (Pipeline.arrRef spec2 w)) = (dat2 (X4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev X5 : (c : Dev nD) → (b : Ref sig .tc) → Buf (Elt F) ((c : Thread nD τ).loc b) := fun c b => W5 m c b
theorem hF2 (c : Dev nD) (w : Fin cfg2.W) : (dat2 (X4 m) c).arrAt w cfg2.N = X5 m c (Pipeline.arrRef spec2 w) :=
  (W5_arr m c w).symm
theorem hrest2 (c : Dev nD) : ∀ b, b ∉ Finset.univ.image (Pipeline.arrRef spec2) → X5 m c b = X4 m c b :=
  fun b hb => W5_of_ne m c b fun w e => hb (Finset.mem_image.mpr ⟨w, Finset.mem_univ _, e⟩)
/-- A buffer that is no output of region 2 leaves it as it entered: an input window's array is never written back,
    and no other buffer is touched. -/
theorem W5_keep (c : Dev nD) (b : Ref sig .tc) (hb : b ∉ ([main_v45] : List (Ref sig .tc))) :
    W5 m c (Proc.devRef .tc b) = W4 m c (Proc.devRef .tc b) := by
  by_cases h : ∃ w, Pipeline.arrRef spec2 w = b
  · obtain ⟨w, rfl⟩ := h
    have hin : (cfg2.win w).isOut = false := by
      match w with
      | ⟨0, _⟩ => rfl
      | ⟨1, _⟩ => rfl
      | ⟨2, _⟩ => exact absurd (List.mem_cons_self) hb
    exact (W5_arr m c w).trans (((dat2 (X4 m) c).arrAt_in w hin _).trans (A_eq2 (X4 m) c w))
  · exact W5_of_ne m c b fun w e => h ⟨w, e⟩

/-- After the third host stretch (the second combine's entry). -/
abbrev W6 : Dev nD → Valuation τ sig (Elt F) := fun c => StableHlo.after hostOps3 (W5 m c)
abbrev X6 : (c : Dev nD) → (b : Ref sig .tc) → Buf (Elt F) ((c : Thread nD τ).loc b) := fun c b => W6 m c b

/-- At region 3's exit: its arrays at what the pipeline leaves (the inputs as entered, each output's write-backs
    folded), every other buffer as entered. -/
def W7 (c : Dev nD) : Valuation τ sig (Elt F) :=
  Pipeline.withArrays spec3 c (W6 m c) fun w => (dat3 (X6 m) c).arrAt w cfg3.N
theorem W7_arr (c : Dev nD) (w : Fin cfg3.W) :
    W7 m c (Proc.devRef .tc (Pipeline.arrRef spec3 w)) = (dat3 (X6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references. -/
abbrev X7 : (c : Dev nD) → (b : Ref sig .tc) → Buf (Elt F) ((c : Thread nD τ).loc b) := fun c b => W7 m c b
theorem hF3 (c : Dev nD) (w : Fin cfg3.W) : (dat3 (X6 m) c).arrAt w cfg3.N = X7 m c (Pipeline.arrRef spec3 w) :=
  (W7_arr m c w).symm
theorem hrest3 (c : Dev nD) : ∀ b, b ∉ Finset.univ.image (Pipeline.arrRef spec3) → X7 m c b = X6 m c b :=
  fun b hb => W7_of_ne m c b fun w e => hb (Finset.mem_image.mpr ⟨w, Finset.mem_univ _, e⟩)
/-- A buffer that is no output of region 3 leaves it as it entered: an input window's array is never written back,
    and no other buffer is touched. -/
theorem W7_keep (c : Dev nD) (b : Ref sig .tc) (hb : b ∉ ([main_v60_0, main_v60_1] : List (Ref sig .tc))) :
    W7 m c (Proc.devRef .tc b) = W6 m c (Proc.devRef .tc b) := by
  by_cases h : ∃ w, Pipeline.arrRef spec3 w = b
  · obtain ⟨w, rfl⟩ := h
    have hin : (cfg3.win w).isOut = false := by
      match w with
      | ⟨0, _⟩ => rfl
      | ⟨1, _⟩ => rfl
      | ⟨2, _⟩ => rfl
      | ⟨3, _⟩ => rfl
      | ⟨4, _⟩ => exact absurd (List.mem_cons_self) hb
      | ⟨5, _⟩ => exact absurd (List.mem_cons_of_mem _ List.mem_cons_self) hb
    exact (W7_arr m c w).trans (((dat3 (X6 m) c).arrAt_in w hin _).trans (A_eq3 (X6 m) c w))
  · exact W7_of_ne m c b fun w e => h ⟨w, e⟩

/-- After the last host stretch: the end. -/
abbrev W8 : Dev nD → Valuation τ sig (Elt F) := fun c => StableHlo.after hostOps4 (W7 m c)

/-- A buffer that no host operation writes and that is no region's output ends as launched. -/
theorem W8_kept (c : Dev nD) (b : Ref sig .tc) (h0 : b ∉ hostOps0_W) (h1 : b ∉ hostOps1_W) (h3 : b ∉ hostOps3_W) (h4 : b ∉ hostOps4_W)
    (hr0 : b ∉ ([main_v29] : List (Ref sig .tc))) (hr1 : b ∉ ([main_v44_0, main_v44_1] : List (Ref sig .tc)))
    (hr2 : b ∉ ([main_v45] : List (Ref sig .tc))) (hr3 : b ∉ ([main_v60_0, main_v60_1] : List (Ref sig .tc))) :
    W8 m c (Proc.devRef .tc b) = m ((c : Thread nD τ).loc b) :=
  calc W8 m c (Proc.devRef .tc b)
    _ = W7 m c (Proc.devRef .tc b) := StableHlo.after_of_writes_sub hostOps4 _ hostOps4_writes h4
    _ = W6 m c (Proc.devRef .tc b) := W7_keep m c b hr3
    _ = W5 m c (Proc.devRef .tc b) := StableHlo.after_of_writes_sub hostOps3 _ hostOps3_writes h3
    _ = W4 m c (Proc.devRef .tc b) := W5_keep m c b hr2
    _ = W3 m c (Proc.devRef .tc b) := W4_keep m c b hr1
    _ = W2 m c (Proc.devRef .tc b) := StableHlo.after_of_writes_sub hostOps1 _ hostOps1_writes h1
    _ = W1 m c (Proc.devRef .tc b) := W2_keep m c b hr0
    _ = W0 m c (Proc.devRef .tc b) := StableHlo.after_of_writes_sub hostOps0 _ hostOps0_writes h0
    _ = m ((c : Thread nD τ).loc b) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) Gen.adm p) c
  | ⟨0, _⟩ => fun c => dat0 (X1 m) c
  | ⟨1, _⟩ => fun c => dat1 (X3 m) c
  | ⟨2, _⟩ => fun c => dat2 (X4 m) c
  | ⟨3, _⟩ => fun c => dat3 (X6 m) c
/-- No core owes another anything: no level is assigned. -/
abbrev noLv : GSem nD τ sig → Finset Unit := fun _ => ∅
abbrev lv0 : GSem nD τ sig → Unit → ℕ := fun _ _ => 0
/-- What rides beside the buffers through every item: the core's generator register at some state and what it owes,
    nothing. -/
abbrev rest (c : Dev nD) : sProp 𝕄 := iprop((∃ r, prngReg c r) ∗ ∃ W, owes (c : Thread nD τ) (0 : CellTallies nD τ sig Unit) W)
/-- A host stretch as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLv lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tend (c : Dev nD) : sProp 𝕄 := iprop(StableHlo.held (c : Thread nD τ) (Pipeline.ucRefs τ sig) (W8 m c) ∗ ∃ r, prngReg c r)

/-! ## The regions as items -/

set_option backward.isDefEq.respectTransparency.types false in
/-- Region 0 over the thread state: entered with every unscoped buffer at W1, left at W2. Its arrays are
    split out of the unscoped buffers at entry and put back at the exit contents; the generator register goes into
    the pipeline's invariant and comes out; nothing is owed; the body has no semaphore of its own. -/
def reg0 : Pipeline.RegionSeg (pcfgs (F := F)) Gen.adm (pdats m) () defs₀ Variants.none noLv lv0 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ noLv lv0 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W3, left at W4. Its arrays are
    split out of the unscoped buffers at entry and put back at the exit contents; the generator register goes into
    the pipeline's invariant and comes out; nothing is owed; the body has no semaphore of its own. -/
def reg1 : Pipeline.RegionSeg (pcfgs (F := F)) Gen.adm (pdats m) () defs₀ Variants.none noLv lv0 1 where
  win := launch1.win.to₀
  block_pos := launch1.block_pos
  stage_whole := launch1.stage_whole
  K := PEmpty
  osem k := k.elim
  ho := Pipeline.OwnSemFacts.none _
  hbody c := (body_obligation1 (X3 m) c).loose
  hwaits := Pipeline.hwaits_of_owed_zero _ _ _ _ noLv lv0 1 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (X3 m c) (X4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W4, left at W5. Its arrays are
    split out of the unscoped buffers at entry and put back at the exit contents; the generator register goes into
    the pipeline's invariant and comes out; nothing is owed; the body has no semaphore of its own. -/
def reg2 : Pipeline.RegionSeg (pcfgs (F := F)) Gen.adm (pdats m) () defs₀ Variants.none noLv lv0 2 where
  win := launch2.win.to₀
  block_pos := launch2.block_pos
  stage_whole := launch2.stage_whole
  K := PEmpty
  osem k := k.elim
  ho := Pipeline.OwnSemFacts.none _
  hbody c := (body_obligation2 (X4 m) c).loose
  hwaits := Pipeline.hwaits_of_owed_zero _ _ _ _ noLv lv0 2 fun _ _ => rfl
  pre c := iprop(StableHlo.held (c : Thread nD τ) (Pipeline.ucRefs τ sig) (W4 m c) ∗ rest c)
  post c := iprop(StableHlo.held (c : Thread nD τ) (Pipeline.ucRefs τ sig) (W5 m c) ∗ rest c)
  X c := iprop(∃ r, prngReg c r)
  Y c := iprop(∃ r, prngReg c r)
  Z c := Pipeline.unscopedRest (Ix := Unit) (Name := ℕ) (U := UR sig nD τ) (Lvl := ℕ) spec2 c (X4 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (X4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (X4 m c) (X5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W6, left at W7. Its arrays are
    split out of the unscoped buffers at entry and put back at the exit contents; the generator register goes into
    the pipeline's invariant and comes out; nothing is owed; the body has no semaphore of its own. -/
def reg3 : Pipeline.RegionSeg (pcfgs (F := F)) Gen.adm (pdats m) () defs₀ Variants.none noLv lv0 3 where
  win := launch3.win.to₀
  block_pos := launch3.block_pos
  stage_whole := launch3.stage_whole
  K := PEmpty
  osem k := k.elim
  ho := Pipeline.OwnSemFacts.none _
  hbody c := (body_obligation3 (X6 m) c).loose
  hwaits := Pipeline.hwaits_of_owed_zero _ _ _ _ noLv lv0 3 fun _ _ => rfl
  pre c := iprop(StableHlo.held (c : Thread nD τ) (Pipeline.ucRefs τ sig) (W6 m c) ∗ rest c)
  post c := iprop(StableHlo.held (c : Thread nD τ) (Pipeline.ucRefs τ sig) (W7 m c) ∗ rest c)
  X c := iprop(∃ r, prngReg c r)
  Y c := iprop(∃ r, prngReg c r)
  Z c := Pipeline.unscopedRest (Ix := Unit) (Name := ℕ) (U := UR sig nD τ) (Lvl := ℕ) spec3 c (X6 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (X6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (X6 m c) (X7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the run -/

/-- The eight items in order. -/
abbrev items : List (Pipeline.Seg (pcfgs (F := F)) Gen.adm (pdats m) () defs₀ Variants.none noLv lv0) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .host (hseg hostOps4 hostOps4_sub hostOps4_fresh (W7 m)) ]

set_option backward.isDefEq.respectTransparency.types false in
/-- At the compiled mesh, from any memory with zero counters, every weakly fair execution of the program on the
    TensorCores terminates, nothing faulting, and in every final state every unscoped buffer holds the last
    boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) Gen.adm (pdats m) () cellOf_inj emb₁ defs₀ Variants.none noLv lv0 m ρ main (items m)
    (fun c Q => by
      rewrite [main_chain c, Seg.run_eq_chain,
        show (items m).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := Tend m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ rest c)
          ⊢ iprop(Tend m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach noLv lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W8_kept m c main_arg0 (by decide) (by decide) (by decide) (by decide) (by decide) (by decide) (by decide) (by decide)),
     (h c _ (mem_uc main_arg1 (by decide))).trans (W8_kept m c main_arg1 (by decide) (by decide) (by decide) (by decide) (by decide) (by decide) (by decide) (by decide)),
     (h c _ (mem_uc main_arg2 (by decide))).trans (W8_kept m c main_arg2 (by decide) (by decide) (by decide) (by decide) (by decide) (by decide) (by decide) (by decide)),
     (h c _ (mem_uc main_arg3 (by decide))).trans (W8_kept m c main_arg3 (by decide) (by decide) (by decide) (by decide) (by decide) (by decide) (by decide) (by decide)),
     (h c _ (mem_uc main_arg4 (by decide))).trans (W8_kept m c main_arg4 (by decide) (by decide) (by decide) (by decide) (by decide) (by decide) (by decide) (by decide)),
     (h c _ (mem_uc main_arg5 (by decide))).trans (W8_kept m c main_arg5 (by decide) (by decide) (by decide) (by decide) (by decide) (by decide) (by decide) (by decide)),
     (h c _ (mem_uc main_arg6 (by decide))).trans (W8_kept m c main_arg6 (by decide) (by decide) (by decide) (by decide) (by decide) (by decide) (by decide) (by decide)),
     (h c _ (mem_uc main_arg7 (by decide))).trans (W8_kept m c main_arg7 (by decide) (by decide) (by decide) (by decide) (by decide) (by decide) (by decide) (by decide))⟩)
    (run_all m ρ)

end Cert.KernelIdeal.Hand

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«153885_j26242250178821_1_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibPlainRecord.lean ====
/-
  A dimension record between `[a, k]`, `[k, n]` and `[a, n]` whose six lists are those of a plain matrix product
  (contract the left operand's axis 1 with the right operand's axis 0, keep the left operand's axis 0 and the right
  operand's axis 1, no batch axis) says what a plain product says: one contracted axis of extent `k`, the left operand
  read at (the result's row, the contracted coordinate), the right operand at (the contracted coordinate, the result's
  column). A literal record discharges the six list equations by `rfl`.
-/
import proofs.«153885_j26242250178821_1_alg».proof.Proof.LibMatRows

noncomputable section

namespace Cert.LibPlainRecord

open Idealize.ShloMosaic Idealize.ShloMosaic.ValueIdx Cert.LibMatRows

variable {a k n : ℕ} (d : DotDims ⟨2, ![a, k]⟩ ⟨2, ![k, n]⟩ ⟨2, ![a, n]⟩)

/-- A coordinate of an index read at two spellings of one position. -/
theorem coord_val_congr {s : Shape} (i : s.Idx) (p q : ℕ) (hp : p < s.rank) (hq : q < s.rank) (h : p = q) :
    (i ⟨p, hp⟩).val = (i ⟨q, hq⟩).val := by
  subst h; rfl

/-- A record with a plain product's six lists is a plain product: the contraction shape is the one axis of extent `k`;
    on the kept axes the operand index reads the result index (no batch axis comes before them), on the contracted
    axes the contraction index. -/
theorem rowsTimesMat_of_lists (h1 : d.lhsContracting = [1]) (h2 : d.rhsContracting = [0]) (h3 : d.lhsNonContracting = [0])
    (h4 : d.rhsNonContracting = [1]) (h5 : d.lhsBatch = []) (h6 : d.rhsBatch = []) : RowsTimesMat d where
  rank := d.rank_contr.trans (by rw [h1]; rfl)
  size := by
    have hp : 0 < d.lhsContracting.length := by rw [h1]; exact Nat.one_pos
    rw [d.size_contr 0 hp, List.getElem_of_eq h1 hp]
    rfl
  l0 := fun i q => by
    have hb : (0 : Fin 2) ∉ d.lhsBatch := by rw [h5]; exact List.not_mem_nil
    have hn : (0 : Fin 2) ∈ d.lhsNonContracting := by rw [h3]; exact List.mem_singleton.mpr rfl
    unfold DotDims.lhsIdx
    rw [dif_neg hb, dif_pos hn]
    simp only [Fin.val_cast]
    exact coord_val_congr i _ _ _ _ (by rw [h5, h3]; rfl)
  l1 := fun i q => d.lhsIdx_val_of_single h1 i q
  r0 := fun i q => d.rhsIdx_val_of_single h2 i q
  r1 := fun i q => by
    have hb : (1 : Fin 2) ∉ d.rhsBatch := by rw [h6]; exact List.not_mem_nil
    have hn : (1 : Fin 2) ∈ d.rhsNonContracting := by rw [h4]; exact List.mem_singleton.mpr rfl
    unfold DotDims.rhsIdx
    rw [dif_neg hb, dif_pos hn]
    simp only [Fin.val_cast]
    exact coord_val_congr i _ _ _ _ (by rw [h5, h3, h4]; rfl)

end Cert.LibPlainRecord

end
-- ==== Proof.IdealPayloads.lean ====
/-
  What the kernels' bodies compute, entry by entry, at the ideal values. The multiplication body's one store holds,
  at (p, q), the sum over k of the row block at (p, k) times the weights at (k, q): the casts to a narrower float
  format are the identity, and the product into the zero accumulator is the plain sum. The combine body's first
  store holds the aggregated block plus the feature block times the per-row column plus the bias row; its second
  store the maximum of that with the value of the zero word.
-/
import proofs.«153885_j26242250178821_1_alg».proof.Proof.Gen.KernelIdeal.Skeleton
import proofs.«153885_j26242250178821_1_alg».proof.Proof.LibPlainRecord
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

/-- The printed dimension record of the 3000 x 64 by 64 x 64 product is a plain matrix product's. -/
theorem plainDims : Cert.LibMatRows.RowsTimesMat (a := 3000) (k := 64) (n := 64) dot_S3000x64_S64x64_S3000x64_1_0_0_1_n_n :=
  Cert.LibPlainRecord.rowsTimesMat_of_lists _ rfl rfl rfl rfl rfl rfl

/-- The first multiplication's store at (p, q). -/
theorem pay_prod0 (x0 : FVec Ideal S3000x64 .f32) (x1 : FVec Ideal S64x64 .f32) (p : Fin 3000) (q : Fin 64) :
    k0_pay1 (F := Ideal) x0 x1 (ix2 p q) = ∑ k : Fin 64, x0 (ix2 p k) * x1 (ix2 k q) := by
  unfold k0_pay1
  refine (Cert.LibMatRows.matmul_rows plainDims _ _ p q).trans ?_
  refine Finset.sum_congr rfl fun k _ => ?_
  show shapeCast S3000x64 x0 shapeCasts_S3000x64_S3000x64 (ix2 p k) * x1 (ix2 k q) = _
  rw [shapeCast_self]

/-- The second multiplication's store at (p, q). -/
theorem pay_prod2 (x0 : FVec Ideal S3000x64 .f32) (x1 : FVec Ideal S64x64 .f32) (p : Fin 3000) (q : Fin 64) :
    k2_pay1 (F := Ideal) x0 x1 (ix2 p q) = ∑ k : Fin 64, x0 (ix2 p k) * x1 (ix2 k q) := by
  unfold k2_pay1
  refine (Cert.LibMatRows.matmul_rows plainDims _ _ p q).trans ?_
  refine Finset.sum_congr rfl fun k _ => ?_
  show shapeCast S3000x64 x0 shapeCasts_S3000x64_S3000x64 (ix2 p k) * x1 (ix2 k q) = _
  rw [shapeCast_self]

/-- A 3000 x 1 column spread over 64 lanes reads, at (p, q), the column at (p, 0). -/
theorem spread_col (x : FVec Ideal S3000x1 .f32) (p : Fin 3000) (q : Fin 64) :
    broadcastTo S3000x64 x broadcasts_S3000x1_S3000x64 (ix2 p q) = x (ix2 p 0) :=
  broadcastTo_apply x broadcasts_S3000x1_S3000x64 (ix2 p q) (ix2 p 0) (fun a => by
    match a with
    | ⟨0, _⟩ => rfl
    | ⟨1, _⟩ => rfl)

/-- A 1 x 64 row spread over 3000 rows reads, at (p, q), the row at (0, q). -/
theorem spread_row (x : FVec Ideal S1x64 .f32) (p : Fin 3000) (q : Fin 64) :
    broadcastTo S3000x64 x broadcasts_S1x64_S3000x64 (ix2 p q) = x (ix2 0 q) :=
  broadcastTo_apply x broadcasts_S1x64_S3000x64 (ix2 p q) (ix2 0 q) (fun a => by
    match a with
    | ⟨0, _⟩ => rfl
    | ⟨1, _⟩ => rfl)

/-- The first combine's first store at (p, q). -/
theorem pay_comb1 (x0 x1 : FVec Ideal S3000x64 .f32) (x2 : FVec Ideal S3000x1 .f32) (x3 : FVec Ideal S1x64 .f32) (p : Fin 3000) (q : Fin 64) :
    k1_pay1 (F := Ideal) x0 x1 x2 x3 (ix2 p q) = x0 (ix2 p q) + x1 (ix2 p q) * x2 (ix2 p 0) + x3 (ix2 0 q) := by
  unfold k1_pay1
  show shapeCast S3000x64 x0 shapeCasts_S3000x64_S3000x64 (ix2 p q)
      + shapeCast S3000x64 x1 shapeCasts_S3000x64_S3000x64 (ix2 p q)
        * broadcastTo S3000x64 (shapeCast S3000x1 x2 shapeCasts_S3000x1_S3000x1) broadcasts_S3000x1_S3000x64 (ix2 p q)
      + broadcastTo S3000x64 (shapeCast S1x64 x3 shapeCasts_S1x64_S1x64) broadcasts_S1x64_S3000x64 (ix2 p q) = _
  rw [shapeCast_self, shapeCast_self, shapeCast_self, shapeCast_self, spread_col, spread_row]

/-- The first combine's second store at (p, q): the positive part of the first. -/
theorem pay_pos1 (x0 x1 : FVec Ideal S3000x64 .f32) (x2 : FVec Ideal S3000x1 .f32) (x3 : FVec Ideal S1x64 .f32) (p : Fin 3000) (q : Fin 64) :
    k1_pay2 (F := Ideal) x0 x1 x2 x3 (ix2 p q) = max (x0 (ix2 p q) + x1 (ix2 p q) * x2 (ix2 p 0) + x3 (ix2 0 q)) (Ideal.ofBits .f32 0x00000000#32) := by
  unfold k1_pay2
  show max (k1_pay1 (F := Ideal) x0 x1 x2 x3 (ix2 p q)) (Ideal.ofBits .f32 0x00000000#32) = _
  rw [pay_comb1]

/-- The second combine's first store at (p, q). -/
theorem pay_comb3 (x0 x1 : FVec Ideal S3000x64 .f32) (x2 : FVec Ideal S3000x1 .f32) (x3 : FVec Ideal S1x64 .f32) (p : Fin 3000) (q : Fin 64) :
    k3_pay1 (F := Ideal) x0 x1 x2 x3 (ix2 p q) = x0 (ix2 p q) + x1 (ix2 p q) * x2 (ix2 p 0) + x3 (ix2 0 q) := by
  unfold k3_pay1
  show shapeCast S3000x64 x0 shapeCasts_S3000x64_S3000x64 (ix2 p q)
      + shapeCast S3000x64 x1 shapeCasts_S3000x64_S3000x64 (ix2 p q)
        * broadcastTo S3000x64 (shapeCast S3000x1 x2 shapeCasts_S3000x1_S3000x1) broadcasts_S3000x1_S3000x64 (ix2 p q)
      + broadcastTo S3000x64 (shapeCast S1x64 x3 shapeCasts_S1x64_S1x64) broadcasts_S1x64_S3000x64 (ix2 p q) = _
  rw [shapeCast_self, shapeCast_self, shapeCast_self, shapeCast_self, spread_col, spread_row]

end Cert.KernelIdeal.Hand

end
-- ==== Proof.Spec.lean ====
/-
  The arithmetic of one graph-convolution layer on literal shapes, as functions of whole arrays read entry by entry:
  the product of the 150000 x 64 feature matrix with a 64 x 64 weight matrix; the combination of the aggregated
  messages with the self-loop term (the transformed features times a per-node column) and the bias row; and the
  positive part. The two programs are compared against these.
-/
import Idealize.ShloMosaic.PureOps.Ideal
import Idealize.ShloMosaic.Lib.ValueIdx

noncomputable section

namespace Cert.Gcn

open Idealize.ShloMosaic Idealize.ShloMosaic.ValueIdx

/-- Entry (p, q) of the product x · w: the sum over k of x(p, k) · w(k, q). -/
def prodAt (x : FVec Ideal ⟨2, ![150000, 64]⟩ .f32) (w : FVec Ideal ⟨2, ![64, 64]⟩ .f32) (p : Fin 150000) (q : Fin 64) : EReal :=
  ∑ k : Fin 64, x (ix2 p k) * w (ix2 k q)

/-- The product x · w as an array. -/
def prod (x : FVec Ideal ⟨2, ![150000, 64]⟩ .f32) (w : FVec Ideal ⟨2, ![64, 64]⟩ .f32) : FVec Ideal ⟨2, ![150000, 64]⟩ .f32 :=
  fun i => prodAt x w (i 0) (i 1)

/-- Entry (p, q) of a layer's output before the activation: the aggregated messages, plus the transformed features
    times the node's self-loop weight (a column), plus the bias (a row). -/
def combAt (agg xw : FVec Ideal ⟨2, ![150000, 64]⟩ .f32) (d : FVec Ideal ⟨2, ![150000, 1]⟩ .f32) (b : FVec Ideal ⟨2, ![1, 64]⟩ .f32)
    (p : Fin 150000) (q : Fin 64) : EReal :=
  agg (ix2 p q) + xw (ix2 p q) * d (ix2 p 0) + b (ix2 0 q)

/-- The layer's output before the activation, as an array. -/
def comb (agg xw : FVec Ideal ⟨2, ![150000, 64]⟩ .f32) (d : FVec Ideal ⟨2, ![150000, 1]⟩ .f32) (b : FVec Ideal ⟨2, ![1, 64]⟩ .f32) :
    FVec Ideal ⟨2, ![150000, 64]⟩ .f32 :=
  fun i => combAt agg xw d b (i 0) (i 1)

/-- The positive part, entry by entry: the maximum with the value of the zero word. -/
def reluArr (x : FVec Ideal ⟨2, ![150000, 64]⟩ .f32) : FVec Ideal ⟨2, ![150000, 64]⟩ .f32 :=
  fun i => max (x i) (Ideal.ofBits .f32 0x00000000#32)

end Cert.Gcn

end
-- ==== Proof.IdealArray0.lean ====
/-
  The array the first multiplication region leaves: grid point t stages rows 3000 t … 3000 t + 2999 of the feature
  matrix and the whole weight matrix, and writes back the same rows of the result; the fifty blocks tile the
  150000 rows, so the result array is the product, entry by entry.
-/
import proofs.«153885_j26242250178821_1_alg».proof.Proof.IdealRegion0
import proofs.«153885_j26242250178821_1_alg».proof.Proof.IdealPayloads
import proofs.«153885_j26242250178821_1_alg».proof.Proof.Spec
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- Where the windows' blocks sit, decided over the fifty grid points: the row blocks at block row t, column block 0;
    the weights at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the row block at point t is the array's entry (3000 t + p, k). -/
theorem emb0_0 (t : Fin cfg0.N) (p : Fin 3000) (k : Fin 64) (hp : t.val * 3000 + p.val < 150000) :
    ((cfg0.win 0).blk t).view.emb (ix2 p k) = ix2 (⟨t.val * 3000 + p.val, hp⟩ : Fin 150000) k := by
  obtain ⟨e0, e1, -⟩ := idx_facts0 t
  funext a; apply Fin.ext
  match a with
  | ⟨0, _⟩ => show win0_0.index t (0 : Fin 2) * 3000 + 1 * p.val = t.val * 3000 + p.val; rw [e0]; omega
  | ⟨1, _⟩ => show win0_0.index t (1 : Fin 2) * 64 + 1 * k.val = k.val; rw [e1]; omega

/-- Entry (k, q) of the weight block is the weight matrix's entry (k, q). -/
theorem emb0_1 (t : Fin cfg0.N) (k : Fin 64) (q : Fin 64) :
    ((cfg0.win 1).blk t).view.emb (ix2 k q) = ix2 k q := by
  obtain ⟨-, -, e2, e3, -⟩ := idx_facts0 t
  funext a; apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- Entry (p, q) of the output block at point t is the array's entry (3000 t + p, q). -/
theorem emb0_2 (t : Fin cfg0.N) (p : Fin 3000) (q : Fin 64) (hp : t.val * 3000 + p.val < 150000) :
    ((cfg0.win 2).blk t).view.emb (ix2 p q) = ix2 (⟨t.val * 3000 + p.val, hp⟩ : Fin 150000) q := by
  obtain ⟨-, -, -, -, e4, e5⟩ := idx_facts0 t
  funext a; apply Fin.ext
  match a with
  | ⟨0, _⟩ => show win0_2.index t (0 : Fin 2) * 3000 + 1 * p.val = t.val * 3000 + p.val; rw [e4]; omega
  | ⟨1, _⟩ => show win0_2.index t (1 : Fin 2) * 64 + 1 * q.val = q.val; rw [e5]; omega

/-- What point t writes back is block t of the product of the arrays the region finds. -/
theorem flushed0_eq (c : Dev nD) (t : Fin cfg0.N) :
    (dat0 V c).flushed 2 t = ((cfg0.win 2).blk t).view.read (Elt Ideal) (prod (V c main_v4) (V c main_arg2)) := by
  show (cfg0.win 2).cut (grid0.coords t) ((dat0 V c).after 2 t) = _
  rw [after0_2]
  unfold out0_2
  rw [View.canon_unit_zero hz0]
  simp only [View.ld_unit_zero (S := S3000x64) hz0, View.ld_unit_zero (S := S64x64) hz0]
  funext j
  obtain ⟨p, q, rfl⟩ : ∃ (p : Fin 3000) (q : Fin 64), j = ix2 p q := ⟨j 0, j 1, eq_ix2 j⟩
  have ht : t.val < 50 := lt_of_lt_of_eq t.isLt N_0
  have hp : t.val * 3000 + p.val < 150000 := by have := p.isLt; omega
  show k0_pay1 (F := Ideal) (iblk0 V c 0 t) (iblk0 V c 1 t) (ix2 p q)
    = prod (V c main_v4) (V c main_arg2) (((cfg0.win 2).blk t).view.emb (ix2 p q))
  rw [emb0_2 t p q hp, pay_prod0]
  show _ = prodAt (V c main_v4) (V c main_arg2) ⟨t.val * 3000 + p.val, hp⟩ q
  unfold prodAt
  refine Finset.sum_congr rfl fun k _ => ?_
  have h0 : iblk0 V c 0 t (ix2 p k) = V c main_v4 (ix2 (⟨t.val * 3000 + p.val, hp⟩ : Fin 150000) k) :=
    congrArg (V c main_v4) (emb0_0 t p k hp)
  have h1 : iblk0 V c 1 t (ix2 k q) = V c main_arg2 (ix2 k q) := congrArg (V c main_arg2) (emb0_1 t k q)
  rw [h0, h1]

/-- An index of the result array is in point t's block iff its row is among the block's 3000 rows. -/
theorem mem_blk0 (t : Fin cfg0.N) (i : S150000x64.Idx) :
    i ∈ ((cfg0.win 2).blk t).view.set ↔ ∀ a : Fin 2, win0_2.index t a * S3000x64.size a ≤ (i a).val ∧ (i a).val < win0_2.index t a * S3000x64.size a + S3000x64.size a := by
  show i ∈ ((View.whole main_v29).slice (win0_2.rect t)).set ↔ _
  rw [View.set_slice_whole, Rect.mem_set_unit]
  exact Iff.rfl

/-- Every entry of the result array is in the block of the point its row falls under. -/
theorem cover0_arr (i : S150000x64.Idx) : ∃ t : Fin cfg0.N, (cfg0.win 2).flush t = true ∧ i ∈ ((cfg0.win 2).blk t).view.set := by
  have hi0 : (i 0).val < 150000 := (i 0).isLt
  have hi1 : (i 1).val < 64 := (i 1).isLt
  obtain ⟨t, ht⟩ : ∃ t : Fin cfg0.N, t.val = (i 0).val / 3000 :=
    ⟨⟨(i 0).val / 3000, lt_of_lt_of_eq (by omega : (i 0).val / 3000 < 50) N_0.symm⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 3000 ≤ (i 0).val ∧ (i 0).val < win0_2.index t (0 : Fin 2) * 3000 + 3000; rw [e4, ht]; omega
  | ⟨1, _⟩ => show win0_2.index t (1 : Fin 2) * 64 ≤ (i 1).val ∧ (i 1).val < win0_2.index t (1 : Fin 2) * 64 + 64; rw [e5]; omega

/-- The result array after the region: the product of the arrays the region finds. -/
theorem final0 (c : Dev nD) : (dat0 V c).arrAt 2 cfg0.N = prod (V c main_v4) (V c main_arg2) :=
  (dat0 V c).arrAt_eq_of_cover 2 (prod (V c main_v4) (V c main_arg2)) (fun t _ => flushed0_eq V c t) (cover0_arr)

end Cert.KernelIdeal.Hand

end
-- ==== Proof.IdealArray1.lean ====
/-
  The arrays the first combine region leaves: grid point t stages rows 3000 t … 3000 t + 2999 of the aggregated
  messages, of the transformed features and of the per-node column, and the whole bias row, and writes back the
  same rows of its two results; the fifty blocks tile the 150000 rows, so each result array is the layer's
  combination (and its positive part), entry by entry.
-/
import proofs.«153885_j26242250178821_1_alg».proof.Proof.IdealRegion1
import proofs.«153885_j26242250178821_1_alg».proof.Proof.IdealPayloads
import proofs.«153885_j26242250178821_1_alg».proof.Proof.Spec
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- Where the windows' blocks sit, decided over the fifty grid points: the row blocks at block row t, column block 0;
    the bias at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Entry (p, q) of a 3000 x 64 row block at point t is the array's entry (3000 t + p, q): the aggregated messages, -/
theorem emb1_0 (t : Fin cfg1.N) (p : Fin 3000) (q : Fin 64) (hp : t.val * 3000 + p.val < 150000) :
    ((cfg1.win 0).blk t).view.emb (ix2 p q) = ix2 (⟨t.val * 3000 + p.val, hp⟩ : Fin 150000) q := by
  obtain ⟨e0, e1, -⟩ := idx_facts1 t
  funext a; apply Fin.ext
  match a with
  | ⟨0, _⟩ => show win1_0.index t (0 : Fin 2) * 3000 + 1 * p.val = t.val * 3000 + p.val; rw [e0]; omega
  | ⟨1, _⟩ => show win1_0.index t (1 : Fin 2) * 64 + 1 * q.val = q.val; rw [e1]; omega

/-- the transformed features, -/
theorem emb1_1 (t : Fin cfg1.N) (p : Fin 3000) (q : Fin 64) (hp : t.val * 3000 + p.val < 150000) :
    ((cfg1.win 1).blk t).view.emb (ix2 p q) = ix2 (⟨t.val * 3000 + p.val, hp⟩ : Fin 150000) q := by
  obtain ⟨-, -, e0, e1, -⟩ := idx_facts1 t
  funext a; apply Fin.ext
  match a with
  | ⟨0, _⟩ => show win1_1.index t (0 : Fin 2) * 3000 + 1 * p.val = t.val * 3000 + p.val; rw [e0]; omega
  | ⟨1, _⟩ => show win1_1.index t (1 : Fin 2) * 64 + 1 * q.val = q.val; rw [e1]; omega

/-- the per-node column (3000 x 1 blocks of a 150000 x 1 array), -/
theorem emb1_2 (t : Fin cfg1.N) (p : Fin 3000) (hp : t.val * 3000 + p.val < 150000) :
    ((cfg1.win 2).blk t).view.emb (ix2 p (0 : Fin 1)) = ix2 (⟨t.val * 3000 + p.val, hp⟩ : Fin 150000) (0 : Fin 1) := by
  obtain ⟨-, -, -, -, e0, e1, -⟩ := idx_facts1 t
  funext a; apply Fin.ext
  match a with
  | ⟨0, _⟩ => show win1_2.index t (0 : Fin 2) * 3000 + 1 * p.val = t.val * 3000 + p.val; rw [e0]; omega
  | ⟨1, _⟩ => show win1_2.index t (1 : Fin 2) * 1 + 1 * 0 = 0; rw [e1]

/-- the bias row (the whole 1 x 64 array), -/
theorem emb1_3 (t : Fin cfg1.N) (q : Fin 64) :
    ((cfg1.win 3).blk t).view.emb (ix2 (0 : Fin 1) q) = ix2 (0 : Fin 1) q := by
  obtain ⟨-, -, -, -, -, -, e0, e1, -⟩ := idx_facts1 t
  funext a; apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega

/-- and the first result. -/
theorem emb1_4 (t : Fin cfg1.N) (p : Fin 3000) (q : Fin 64) (hp : t.val * 3000 + p.val < 150000) :
    ((cfg1.win 4).blk t).view.emb (ix2 p q) = ix2 (⟨t.val * 3000 + p.val, hp⟩ : Fin 150000) q := by
  obtain ⟨-, -, -, -, -, -, -, -, e0, e1, -⟩ := idx_facts1 t
  funext a; apply Fin.ext
  match a with
  | ⟨0, _⟩ => show win1_4.index t (0 : Fin 2) * 3000 + 1 * p.val = t.val * 3000 + p.val; rw [e0]; omega
  | ⟨1, _⟩ => show win1_4.index t (1 : Fin 2) * 64 + 1 * q.val = q.val; rw [e1]; omega

/-- The four input blocks at point t, read at the entries the body's arithmetic at (p, q) touches. -/
theorem rd1_0 (c : Dev nD) (t : Fin cfg1.N) (p : Fin 3000) (q : Fin 64) (hp : t.val * 3000 + p.val < 150000) :
    iblk1 V c 0 t (ix2 p q) = V c main_v42 (ix2 (⟨t.val * 3000 + p.val, hp⟩ : Fin 150000) q) :=
  congrArg (V c main_v42) (emb1_0 t p q hp)
theorem rd1_1 (c : Dev nD) (t : Fin cfg1.N) (p : Fin 3000) (q : Fin 64) (hp : t.val * 3000 + p.val < 150000) :
    iblk1 V c 1 t (ix2 p q) = V c main_v29 (ix2 (⟨t.val * 3000 + p.val, hp⟩ : Fin 150000) q) :=
  congrArg (V c main_v29) (emb1_1 t p q hp)
theorem rd1_2 (c : Dev nD) (t : Fin cfg1.N) (p : Fin 3000) (hp : t.val * 3000 + p.val < 150000) :
    iblk1 V c 2 t (ix2 p (0 : Fin 1)) = V c main_v28 (ix2 (⟨t.val * 3000 + p.val, hp⟩ : Fin 150000) (0 : Fin 1)) :=
  congrArg (V c main_v28) (emb1_2 t p hp)
theorem rd1_3 (c : Dev nD) (t : Fin cfg1.N) (q : Fin 64) :
    iblk1 V c 3 t (ix2 (0 : Fin 1) q) = V c main_v43 (ix2 (0 : Fin 1) q) :=
  congrArg (V c main_v43) (emb1_3 t q)

/-- What point t writes back to the first result is block t of the layer's combination of the arrays the region finds. -/
theorem flushed1_4_eq (c : Dev nD) (t : Fin cfg1.N) :
    (dat1 V c).flushed 4 t = ((cfg1.win 4).blk t).view.read (Elt Ideal) (comb (V c main_v42) (V c main_v29) (V c main_v28) (V c main_v43)) := by
  show (cfg1.win 4).cut (grid1.coords t) ((dat1 V c).after 4 t) = _
  rw [after1_4]
  unfold out1_4
  rw [View.canon_unit_zero hz1]
  simp only [View.ld_unit_zero (S := S3000x64) hz1, View.ld_unit_zero (S := S3000x1) hz1, View.ld_unit_zero (S := S1x64) hz1]
  funext j
  obtain ⟨p, q, rfl⟩ : ∃ (p : Fin 3000) (q : Fin 64), j = ix2 p q := ⟨j 0, j 1, eq_ix2 j⟩
  have ht : t.val < 50 := lt_of_lt_of_eq t.isLt N_1
  have hp : t.val * 3000 + p.val < 150000 := by have := p.isLt; omega
  show k1_pay1 (F := Ideal) (iblk1 V c 0 t) (iblk1 V c 1 t) (iblk1 V c 2 t) (iblk1 V c 3 t) (ix2 p q)
    = comb (V c main_v42) (V c main_v29) (V c main_v28) (V c main_v43) (((cfg1.win 4).blk t).view.emb (ix2 p q))
  rw [emb1_4 t p q hp, pay_comb1]
  rw [rd1_0 V c t p q hp, rd1_1 V c t p q hp, rd1_2 V c t p hp, rd1_3 V c t q]
  rfl

/-- An index of the first result array is in point t's block iff its row is among the block's 3000 rows. -/
theorem mem_blk1_4 (t : Fin cfg1.N) (i : S150000x64.Idx) :
    i ∈ ((cfg1.win 4).blk t).view.set ↔ ∀ a : Fin 2, win1_4.index t a * S3000x64.size a ≤ (i a).val ∧ (i a).val < win1_4.index t a * S3000x64.size a + S3000x64.size a := by
  show i ∈ ((View.whole main_v44_0).slice (win1_4.rect t)).set ↔ _
  rw [View.set_slice_whole, Rect.mem_set_unit]
  exact Iff.rfl

/-- Every entry of the first result array is in the block of the point its row falls under. -/
theorem cover1_4 (i : S150000x64.Idx) : ∃ t : Fin cfg1.N, (cfg1.win 4).flush t = true ∧ i ∈ ((cfg1.win 4).blk t).view.set := by
  have hi0 : (i 0).val < 150000 := (i 0).isLt
  have hi1 : (i 1).val < 64 := (i 1).isLt
  obtain ⟨t, ht⟩ : ∃ t : Fin cfg1.N, t.val = (i 0).val / 3000 :=
    ⟨⟨(i 0).val / 3000, lt_of_lt_of_eq (by omega : (i 0).val / 3000 < 50) N_1.symm⟩, rfl⟩
  obtain ⟨-, -, -, -, -, -, -, -, e4, e5, -⟩ := idx_facts1 t
  refine ⟨t, flush1_4 t, ?_⟩
  rw [mem_blk1_4]
  intro a
  match a with
  | ⟨0, _⟩ => show win1_4.index t (0 : Fin 2) * 3000 ≤ (i 0).val ∧ (i 0).val < win1_4.index t (0 : Fin 2) * 3000 + 3000; rw [e4, ht]; omega
  | ⟨1, _⟩ => show win1_4.index t (1 : Fin 2) * 64 ≤ (i 1).val ∧ (i 1).val < win1_4.index t (1 : Fin 2) * 64 + 64; rw [e5]; omega

/-- The first result array after the region: the layer's combination of the arrays the region finds. -/
theorem final1_4 (c : Dev nD) : (dat1 V c).arrAt 4 cfg1.N = comb (V c main_v42) (V c main_v29) (V c main_v28) (V c main_v43) :=
  (dat1 V c).arrAt_eq_of_cover 4 (comb (V c main_v42) (V c main_v29) (V c main_v28) (V c main_v43)) (fun t _ => flushed1_4_eq V c t) (cover1_4)

/-- Entry (p, q) of the second result's block at point t is the array's entry (3000 t + p, q). -/
theorem emb1_5 (t : Fin cfg1.N) (p : Fin 3000) (q : Fin 64) (hp : t.val * 3000 + p.val < 150000) :
    ((cfg1.win 5).blk t).view.emb (ix2 p q) = ix2 (⟨t.val * 3000 + p.val, hp⟩ : Fin 150000) q := by
  obtain ⟨-, -, -, -, -, -, -, -, -, -, e0, e1⟩ := idx_facts1 t
  funext a; apply Fin.ext
  match a with
  | ⟨0, _⟩ => show win1_5.index t (0 : Fin 2) * 3000 + 1 * p.val = t.val * 3000 + p.val; rw [e0]; omega
  | ⟨1, _⟩ => show win1_5.index t (1 : Fin 2) * 64 + 1 * q.val = q.val; rw [e1]; omega

/-- What point t writes back to the second result is block t of the positive part of the combination. -/
theorem flushed1_5_eq (c : Dev nD) (t : Fin cfg1.N) :
    (dat1 V c).flushed 5 t = ((cfg1.win 5).blk t).view.read (Elt Ideal) (reluArr (comb (V c main_v42) (V c main_v29) (V c main_v28) (V c main_v43))) := by
  show (cfg1.win 5).cut (grid1.coords t) ((dat1 V c).after 5 t) = _
  rw [after1_5]
  unfold out1_5
  rw [View.canon_unit_zero hz1]
  simp only [View.ld_unit_zero (S := S3000x64) hz1, View.ld_unit_zero (S := S3000x1) hz1, View.ld_unit_zero (S := S1x64) hz1]
  funext j
  obtain ⟨p, q, rfl⟩ : ∃ (p : Fin 3000) (q : Fin 64), j = ix2 p q := ⟨j 0, j 1, eq_ix2 j⟩
  have ht : t.val < 50 := lt_of_lt_of_eq t.isLt N_1
  have hp : t.val * 3000 + p.val < 150000 := by have := p.isLt; omega
  show k1_pay2 (F := Ideal) (iblk1 V c 0 t) (iblk1 V c 1 t) (iblk1 V c 2 t) (iblk1 V c 3 t) (ix2 p q)
    = reluArr (comb (V c main_v42) (V c main_v29) (V c main_v28) (V c main_v43)) (((cfg1.win 5).blk t).view.emb (ix2 p q))
  rw [emb1_5 t p q hp, pay_pos1, rd1_0 V c t p q hp, rd1_1 V c t p q hp, rd1_2 V c t p hp, rd1_3 V c t q]
  rfl

/-- An index of the second result array is in point t's block iff its row is among the block's 3000 rows. -/
theorem mem_blk1_5 (t : Fin cfg1.N) (i : S150000x64.Idx) :
    i ∈ ((cfg1.win 5).blk t).view.set ↔ ∀ a : Fin 2, win1_5.index t a * S3000x64.size a ≤ (i a).val ∧ (i a).val < win1_5.index t a * S3000x64.size a + S3000x64.size a := by
  show i ∈ ((View.whole main_v44_1).slice (win1_5.rect t)).set ↔ _
  rw [View.set_slice_whole, Rect.mem_set_unit]
  exact Iff.rfl

/-- Every entry of the second result array is in the block of the point its row falls under. -/
theorem cover1_5 (i : S150000x64.Idx) : ∃ t : Fin cfg1.N, (cfg1.win 5).flush t = true ∧ i ∈ ((cfg1.win 5).blk t).view.set := by
  have hi0 : (i 0).val < 150000 := (i 0).isLt
  have hi1 : (i 1).val < 64 := (i 1).isLt
  obtain ⟨t, ht⟩ : ∃ t : Fin cfg1.N, t.val = (i 0).val / 3000 :=
    ⟨⟨(i 0).val / 3000, lt_of_lt_of_eq (by omega : (i 0).val / 3000 < 50) N_1.symm⟩, rfl⟩
  obtain ⟨-, -, -, -, -, -, -, -, -, -, e4, e5⟩ := idx_facts1 t
  refine ⟨t, flush1_5 t, ?_⟩
  rw [mem_blk1_5]
  intro a
  match a with
  | ⟨0, _⟩ => show win1_5.index t (0 : Fin 2) * 3000 ≤ (i 0).val ∧ (i 0).val < win1_5.index t (0 : Fin 2) * 3000 + 3000; rw [e4, ht]; omega
  | ⟨1, _⟩ => show win1_5.index t (1 : Fin 2) * 64 ≤ (i 1).val ∧ (i 1).val < win1_5.index t (1 : Fin 2) * 64 + 64; rw [e5]; omega

/-- The second result array after the region: the positive part of the combination. -/
theorem final1_5 (c : Dev nD) : (dat1 V c).arrAt 5 cfg1.N = reluArr (comb (V c main_v42) (V c main_v29) (V c main_v28) (V c main_v43)) :=
  (dat1 V c).arrAt_eq_of_cover 5 (reluArr (comb (V c main_v42) (V c main_v29) (V c main_v28) (V c main_v43))) (fun t _ => flushed1_5_eq V c t) (cover1_5)

end Cert.KernelIdeal.Hand

end
-- ==== Proof.IdealArray2.lean ====
/-
  The array the second multiplication region leaves: grid point t stages rows 3000 t … 3000 t + 2999 of the feature
  matrix and the whole weight matrix, and writes back the same rows of the result; the fifty blocks tile the
  150000 rows, so the result array is the product, entry by entry.
-/
import proofs.«153885_j26242250178821_1_alg».proof.Proof.IdealRegion2
import proofs.«153885_j26242250178821_1_alg».proof.Proof.IdealPayloads
import proofs.«153885_j26242250178821_1_alg».proof.Proof.Spec
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Where the windows' blocks sit, decided over the fifty grid points: the row blocks at block row t, column block 0;
    the weights at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the row block at point t is the array's entry (3000 t + p, k). -/
theorem emb2_0 (t : Fin cfg2.N) (p : Fin 3000) (k : Fin 64) (hp : t.val * 3000 + p.val < 150000) :
    ((cfg2.win 0).blk t).view.emb (ix2 p k) = ix2 (⟨t.val * 3000 + p.val, hp⟩ : Fin 150000) k := by
  obtain ⟨e0, e1, -⟩ := idx_facts2 t
  funext a; apply Fin.ext
  match a with
  | ⟨0, _⟩ => show win2_0.index t (0 : Fin 2) * 3000 + 1 * p.val = t.val * 3000 + p.val; rw [e0]; omega
  | ⟨1, _⟩ => show win2_0.index t (1 : Fin 2) * 64 + 1 * k.val = k.val; rw [e1]; omega

/-- Entry (k, q) of the weight block is the weight matrix's entry (k, q). -/
theorem emb2_1 (t : Fin cfg2.N) (k : Fin 64) (q : Fin 64) :
    ((cfg2.win 1).blk t).view.emb (ix2 k q) = ix2 k q := by
  obtain ⟨-, -, e2, e3, -⟩ := idx_facts2 t
  funext a; apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- Entry (p, q) of the output block at point t is the array's entry (3000 t + p, q). -/
theorem emb2_2 (t : Fin cfg2.N) (p : Fin 3000) (q : Fin 64) (hp : t.val * 3000 + p.val < 150000) :
    ((cfg2.win 2).blk t).view.emb (ix2 p q) = ix2 (⟨t.val * 3000 + p.val, hp⟩ : Fin 150000) q := by
  obtain ⟨-, -, -, -, e4, e5⟩ := idx_facts2 t
  funext a; apply Fin.ext
  match a with
  | ⟨0, _⟩ => show win2_2.index t (0 : Fin 2) * 3000 + 1 * p.val = t.val * 3000 + p.val; rw [e4]; omega
  | ⟨1, _⟩ => show win2_2.index t (1 : Fin 2) * 64 + 1 * q.val = q.val; rw [e5]; omega

/-- What point t writes back is block t of the product of the arrays the region finds. -/
theorem flushed2_eq (c : Dev nD) (t : Fin cfg2.N) :
    (dat2 V c).flushed 2 t = ((cfg2.win 2).blk t).view.read (Elt Ideal) (prod (V c main_v44_1) (V c main_arg4)) := by
  show (cfg2.win 2).cut (grid2.coords t) ((dat2 V c).after 2 t) = _
  rw [after2_2]
  unfold out2_2
  rw [View.canon_unit_zero hz2]
  simp only [View.ld_unit_zero (S := S3000x64) hz2, View.ld_unit_zero (S := S64x64) hz2]
  funext j
  obtain ⟨p, q, rfl⟩ : ∃ (p : Fin 3000) (q : Fin 64), j = ix2 p q := ⟨j 0, j 1, eq_ix2 j⟩
  have ht : t.val < 50 := lt_of_lt_of_eq t.isLt N_2
  have hp : t.val * 3000 + p.val < 150000 := by have := p.isLt; omega
  show k2_pay1 (F := Ideal) (iblk2 V c 0 t) (iblk2 V c 1 t) (ix2 p q)
    = prod (V c main_v44_1) (V c main_arg4) (((cfg2.win 2).blk t).view.emb (ix2 p q))
  rw [emb2_2 t p q hp, pay_prod2]
  show _ = prodAt (V c main_v44_1) (V c main_arg4) ⟨t.val * 3000 + p.val, hp⟩ q
  unfold prodAt
  refine Finset.sum_congr rfl fun k _ => ?_
  have h0 : iblk2 V c 0 t (ix2 p k) = V c main_v44_1 (ix2 (⟨t.val * 3000 + p.val, hp⟩ : Fin 150000) k) :=
    congrArg (V c main_v44_1) (emb2_0 t p k hp)
  have h1 : iblk2 V c 1 t (ix2 k q) = V c main_arg4 (ix2 k q) := congrArg (V c main_arg4) (emb2_1 t k q)
  rw [h0, h1]

/-- An index of the result array is in point t's block iff its row is among the block's 3000 rows. -/
theorem mem_blk2 (t : Fin cfg2.N) (i : S150000x64.Idx) :
    i ∈ ((cfg2.win 2).blk t).view.set ↔ ∀ a : Fin 2, win2_2.index t a * S3000x64.size a ≤ (i a).val ∧ (i a).val < win2_2.index t a * S3000x64.size a + S3000x64.size a := by
  show i ∈ ((View.whole main_v45).slice (win2_2.rect t)).set ↔ _
  rw [View.set_slice_whole, Rect.mem_set_unit]
  exact Iff.rfl

/-- Every entry of the result array is in the block of the point its row falls under. -/
theorem cover2_arr (i : S150000x64.Idx) : ∃ t : Fin cfg2.N, (cfg2.win 2).flush t = true ∧ i ∈ ((cfg2.win 2).blk t).view.set := by
  have hi0 : (i 0).val < 150000 := (i 0).isLt
  have hi1 : (i 1).val < 64 := (i 1).isLt
  obtain ⟨t, ht⟩ : ∃ t : Fin cfg2.N, t.val = (i 0).val / 3000 :=
    ⟨⟨(i 0).val / 3000, lt_of_lt_of_eq (by omega : (i 0).val / 3000 < 50) N_2.symm⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 3000 ≤ (i 0).val ∧ (i 0).val < win2_2.index t (0 : Fin 2) * 3000 + 3000; rw [e4, ht]; omega
  | ⟨1, _⟩ => show win2_2.index t (1 : Fin 2) * 64 ≤ (i 1).val ∧ (i 1).val < win2_2.index t (1 : Fin 2) * 64 + 64; rw [e5]; omega

/-- The result array after the region: the product of the arrays the region finds. -/
theorem final2 (c : Dev nD) : (dat2 V c).arrAt 2 cfg2.N = prod (V c main_v44_1) (V c main_arg4) :=
  (dat2 V c).arrAt_eq_of_cover 2 (prod (V c main_v44_1) (V c main_arg4)) (fun t _ => flushed2_eq V c t) (cover2_arr)

end Cert.KernelIdeal.Hand

end
-- ==== Proof.IdealArray3.lean ====
/-
  The arrays the second combine region leaves: grid point t stages rows 3000 t … 3000 t + 2999 of the aggregated
  messages, of the transformed features and of the per-node column, and the whole bias row, and writes back the
  same rows of its result; the fifty blocks tile the 150000 rows, so the result array is the layer's
  combination, entry by entry.
-/
import proofs.«153885_j26242250178821_1_alg».proof.Proof.IdealRegion3
import proofs.«153885_j26242250178821_1_alg».proof.Proof.IdealPayloads
import proofs.«153885_j26242250178821_1_alg».proof.Proof.Spec
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- Where the windows' blocks sit, decided over the fifty grid points: the row blocks at block row t, column block 0;
    the bias at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Entry (p, q) of a 3000 x 64 row block at point t is the array's entry (3000 t + p, q): the aggregated messages, -/
theorem emb3_0 (t : Fin cfg3.N) (p : Fin 3000) (q : Fin 64) (hp : t.val * 3000 + p.val < 150000) :
    ((cfg3.win 0).blk t).view.emb (ix2 p q) = ix2 (⟨t.val * 3000 + p.val, hp⟩ : Fin 150000) q := by
  obtain ⟨e0, e1, -⟩ := idx_facts3 t
  funext a; apply Fin.ext
  match a with
  | ⟨0, _⟩ => show win3_0.index t (0 : Fin 2) * 3000 + 1 * p.val = t.val * 3000 + p.val; rw [e0]; omega
  | ⟨1, _⟩ => show win3_0.index t (1 : Fin 2) * 64 + 1 * q.val = q.val; rw [e1]; omega

/-- the transformed features, -/
theorem emb3_1 (t : Fin cfg3.N) (p : Fin 3000) (q : Fin 64) (hp : t.val * 3000 + p.val < 150000) :
    ((cfg3.win 1).blk t).view.emb (ix2 p q) = ix2 (⟨t.val * 3000 + p.val, hp⟩ : Fin 150000) q := by
  obtain ⟨-, -, e0, e1, -⟩ := idx_facts3 t
  funext a; apply Fin.ext
  match a with
  | ⟨0, _⟩ => show win3_1.index t (0 : Fin 2) * 3000 + 1 * p.val = t.val * 3000 + p.val; rw [e0]; omega
  | ⟨1, _⟩ => show win3_1.index t (1 : Fin 2) * 64 + 1 * q.val = q.val; rw [e1]; omega

/-- the per-node column (3000 x 1 blocks of a 150000 x 1 array), -/
theorem emb3_2 (t : Fin cfg3.N) (p : Fin 3000) (hp : t.val * 3000 + p.val < 150000) :
    ((cfg3.win 2).blk t).view.emb (ix2 p (0 : Fin 1)) = ix2 (⟨t.val * 3000 + p.val, hp⟩ : Fin 150000) (0 : Fin 1) := by
  obtain ⟨-, -, -, -, e0, e1, -⟩ := idx_facts3 t
  funext a; apply Fin.ext
  match a with
  | ⟨0, _⟩ => show win3_2.index t (0 : Fin 2) * 3000 + 1 * p.val = t.val * 3000 + p.val; rw [e0]; omega
  | ⟨1, _⟩ => show win3_2.index t (1 : Fin 2) * 1 + 1 * 0 = 0; rw [e1]

/-- the bias row (the whole 1 x 64 array), -/
theorem emb3_3 (t : Fin cfg3.N) (q : Fin 64) :
    ((cfg3.win 3).blk t).view.emb (ix2 (0 : Fin 1) q) = ix2 (0 : Fin 1) q := by
  obtain ⟨-, -, -, -, -, -, e0, e1, -⟩ := idx_facts3 t
  funext a; apply Fin.ext
  match a with
  | ⟨0, _⟩ => show win3_3.index t (0 : Fin 2) * 1 + 1 * 0 = 0; rw [e0]
  | ⟨1, _⟩ => show win3_3.index t (1 : Fin 2) * 64 + 1 * q.val = q.val; rw [e1]; omega

/-- and the first result. -/
theorem emb3_4 (t : Fin cfg3.N) (p : Fin 3000) (q : Fin 64) (hp : t.val * 3000 + p.val < 150000) :
    ((cfg3.win 4).blk t).view.emb (ix2 p q) = ix2 (⟨t.val * 3000 + p.val, hp⟩ : Fin 150000) q := by
  obtain ⟨-, -, -, -, -, -, -, -, e0, e1, -⟩ := idx_facts3 t
  funext a; apply Fin.ext
  match a with
  | ⟨0, _⟩ => show win3_4.index t (0 : Fin 2) * 3000 + 1 * p.val = t.val * 3000 + p.val; rw [e0]; omega
  | ⟨1, _⟩ => show win3_4.index t (1 : Fin 2) * 64 + 1 * q.val = q.val; rw [e1]; omega

/-- The four input blocks at point t, read at the entries the body's arithmetic at (p, q) touches. -/
theorem rd3_0 (c : Dev nD) (t : Fin cfg3.N) (p : Fin 3000) (q : Fin 64) (hp : t.val * 3000 + p.val < 150000) :
    iblk3 V c 0 t (ix2 p q) = V c main_v58 (ix2 (⟨t.val * 3000 + p.val, hp⟩ : Fin 150000) q) :=
  congrArg (V c main_v58) (emb3_0 t p q hp)
theorem rd3_1 (c : Dev nD) (t : Fin cfg3.N) (p : Fin 3000) (q : Fin 64) (hp : t.val * 3000 + p.val < 150000) :
    iblk3 V c 1 t (ix2 p q) = V c main_v45 (ix2 (⟨t.val * 3000 + p.val, hp⟩ : Fin 150000) q) :=
  congrArg (V c main_v45) (emb3_1 t p q hp)
theorem rd3_2 (c : Dev nD) (t : Fin cfg3.N) (p : Fin 3000) (hp : t.val * 3000 + p.val < 150000) :
    iblk3 V c 2 t (ix2 p (0 : Fin 1)) = V c main_v28 (ix2 (⟨t.val * 3000 + p.val, hp⟩ : Fin 150000) (0 : Fin 1)) :=
  congrArg (V c main_v28) (emb3_2 t p hp)
theorem rd3_3 (c : Dev nD) (t : Fin cfg3.N) (q : Fin 64) :
    iblk3 V c 3 t (ix2 (0 : Fin 1) q) = V c main_v59 (ix2 (0 : Fin 1) q) :=
  congrArg (V c main_v59) (emb3_3 t q)

/-- What point t writes back to the first result is block t of the layer's combination of the arrays the region finds. -/
theorem flushed3_4_eq (c : Dev nD) (t : Fin cfg3.N) :
    (dat3 V c).flushed 4 t = ((cfg3.win 4).blk t).view.read (Elt Ideal) (comb (V c main_v58) (V c main_v45) (V c main_v28) (V c main_v59)) := by
  show (cfg3.win 4).cut (grid3.coords t) ((dat3 V c).after 4 t) = _
  rw [after3_4]
  unfold out3_4
  rw [View.canon_unit_zero hz3]
  simp only [View.ld_unit_zero (S := S3000x64) hz3, View.ld_unit_zero (S := S3000x1) hz3, View.ld_unit_zero (S := S1x64) hz3]
  funext j
  obtain ⟨p, q, rfl⟩ : ∃ (p : Fin 3000) (q : Fin 64), j = ix2 p q := ⟨j 0, j 1, eq_ix2 j⟩
  have ht : t.val < 50 := lt_of_lt_of_eq t.isLt N_3
  have hp : t.val * 3000 + p.val < 150000 := by have := p.isLt; omega
  show k3_pay1 (F := Ideal) (iblk3 V c 0 t) (iblk3 V c 1 t) (iblk3 V c 2 t) (iblk3 V c 3 t) (ix2 p q)
    = comb (V c main_v58) (V c main_v45) (V c main_v28) (V c main_v59) (((cfg3.win 4).blk t).view.emb (ix2 p q))
  rw [emb3_4 t p q hp, pay_comb3]
  rw [rd3_0 V c t p q hp, rd3_1 V c t p q hp, rd3_2 V c t p hp, rd3_3 V c t q]
  rfl

/-- An index of the first result array is in point t's block iff its row is among the block's 3000 rows. -/
theorem mem_blk3_4 (t : Fin cfg3.N) (i : S150000x64.Idx) :
    i ∈ ((cfg3.win 4).blk t).view.set ↔ ∀ a : Fin 2, win3_4.index t a * S3000x64.size a ≤ (i a).val ∧ (i a).val < win3_4.index t a * S3000x64.size a + S3000x64.size a := by
  show i ∈ ((View.whole main_v60_0).slice (win3_4.rect t)).set ↔ _
  rw [View.set_slice_whole, Rect.mem_set_unit]
  exact Iff.rfl

/-- Every entry of the first result array is in the block of the point its row falls under. -/
theorem cover3_4 (i : S150000x64.Idx) : ∃ t : Fin cfg3.N, (cfg3.win 4).flush t = true ∧ i ∈ ((cfg3.win 4).blk t).view.set := by
  have hi0 : (i 0).val < 150000 := (i 0).isLt
  have hi1 : (i 1).val < 64 := (i 1).isLt
  obtain ⟨t, ht⟩ : ∃ t : Fin cfg3.N, t.val = (i 0).val / 3000 :=
    ⟨⟨(i 0).val / 3000, lt_of_lt_of_eq (by omega : (i 0).val / 3000 < 50) N_3.symm⟩, rfl⟩
  obtain ⟨-, -, -, -, -, -, -, -, e4, e5, -⟩ := idx_facts3 t
  refine ⟨t, flush3_4 t, ?_⟩
  rw [mem_blk3_4]
  intro a
  match a with
  | ⟨0, _⟩ => show win3_4.index t (0 : Fin 2) * 3000 ≤ (i 0).val ∧ (i 0).val < win3_4.index t (0 : Fin 2) * 3000 + 3000; rw [e4, ht]; omega
  | ⟨1, _⟩ => show win3_4.index t (1 : Fin 2) * 64 ≤ (i 1).val ∧ (i 1).val < win3_4.index t (1 : Fin 2) * 64 + 64; rw [e5]; omega

/-- The first result array after the region: the layer's combination of the arrays the region finds. -/
theorem final3_4 (c : Dev nD) : (dat3 V c).arrAt 4 cfg3.N = comb (V c main_v58) (V c main_v45) (V c main_v28) (V c main_v59) :=
  (dat3 V c).arrAt_eq_of_cover 4 (comb (V c main_v58) (V c main_v45) (V c main_v28) (V c main_v59)) (fun t _ => flushed3_4_eq V c t) (cover3_4)

end Cert.KernelIdeal.Hand

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.LayerHost.lean ====
/-
  The reference's stages as the layer's arithmetic. Read entry by entry at the ideal values: the host's matrix
  product is the plain sum over the contracted axis; a vector laid out as a column or as a row by a reshape, or by a
  broadcast along a new unit axis, holds the vector's entries; spreading a column over the lanes or a row over the
  rows repeats it. Hence the reference's pre-activation output of a layer — aggregated messages, plus transformed
  features times the squared inverse root degree broadcast over the lanes, plus the bias broadcast over the rows —
  is the combination of the four arrays, its relu the positive part, and the next layer's product the plain product.
-/
import proofs.«153885_j26242250178821_1_alg».proof.Proof.Gen.ReferenceIdeal.Read
import proofs.«153885_j26242250178821_1_alg».proof.Proof.Spec
import proofs.«153885_j26242250178821_1_alg».proof.Proof.LibPlainRecord
import proofs.«153885_j26242250178821_1_alg».proof.Proof.LibHostBroadcast
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.Gcn
open Idealize.ShloMosaic Idealize.ShloMosaic.ValueIdx

/-- The host's product of the feature matrix with a weight matrix is the plain product. -/
theorem dot_eq_prod (x : FVec Ideal S150000x64 .f32) (w : FVec Ideal S64x64 .f32) :
    Host.dotGeneral dot_S150000x64_S64x64_S150000x64_1_0_0_1_n_n none x w = prod x w := by
  funext i
  obtain ⟨p, q, rfl⟩ : ∃ (p : Fin 150000) (q : Fin 64), i = ix2 p q := ⟨i 0, i 1, eq_ix2 i⟩
  exact (Cert.LibMatRows.dotGeneral_rows (a := 150000) (k := 64) (n := 64)
    (Cert.LibPlainRecord.rowsTimesMat_of_lists _ rfl rfl rfl rfl rfl rfl) x w p q).trans rfl

/-- A vector of 150000 entries reshaped to a column holds, at (p, 0), the vector's entry p. -/
theorem col_cast (dd : FVec Ideal ⟨1, ![150000]⟩ .f32) (h : (⟨1, ![150000]⟩ : Shape).ShapeCasts ⟨2, ![150000, 1]⟩) (p : Fin 150000) :
    shapeCast ⟨2, ![150000, 1]⟩ dd h (ix2 p (0 : Fin 1)) = dd (ix1 p) :=
  shapeCast_apply dd h (ix2 p (0 : Fin 1)) (ix1 p)
    (by rewrite [Shape.rowMajor_val_two, Shape.rowMajor_val_one]; show p.val = p.val * 1 + 0; omega)

/-- A vector of 64 entries reshaped to a row holds, at (0, q), the vector's entry q. -/
theorem row_cast (b : FVec Ideal ⟨1, ![64]⟩ .f32) (h : (⟨1, ![64]⟩ : Shape).ShapeCasts ⟨2, ![1, 64]⟩) (q : Fin 64) :
    shapeCast ⟨2, ![1, 64]⟩ b h (ix2 (0 : Fin 1) q) = b (ix1 q) :=
  shapeCast_apply b h (ix2 (0 : Fin 1) q) (ix1 q)
    (by rewrite [Shape.rowMajor_val_two, Shape.rowMajor_val_one]; show q.val = 0 * 64 + q.val; omega)

/-- The combination with the column and the row given as reshaped vectors is the host's sum of the aggregated
    array, the features times the vector broadcast over the lanes, and the bias broadcast over the rows. -/
theorem comb_host (A XW : FVec Ideal S150000x64 .f32) (dd : FVec Ideal S150000 .f32) (b : FVec Ideal S64 .f32)
    (h1 : (⟨1, ![150000]⟩ : Shape).ShapeCasts ⟨2, ![150000, 1]⟩) (h2 : (⟨1, ![64]⟩ : Shape).ShapeCasts ⟨2, ![1, 64]⟩) :
    addf (addf A (mulf XW (broadcastInDim S150000x64 ![0, 1] bcast_S150000x1_S150000x64_0_1 (broadcastInDim S150000x1 ![0] bcast_S150000_S150000x1_0 dd))))
        (broadcastInDim S150000x64 ![0, 1] bcast_S1x64_S150000x64_0_1 (broadcastInDim S1x64 ![1] bcast_S64_S1x64_1 b))
      = comb A XW (shapeCast ⟨2, ![150000, 1]⟩ dd h1) (shapeCast ⟨2, ![1, 64]⟩ b h2) := by
  funext i
  obtain ⟨p, q, rfl⟩ : ∃ (p : Fin 150000) (q : Fin 64), i = ix2 p q := ⟨i 0, i 1, eq_ix2 i⟩
  show A (ix2 p q) + XW (ix2 p q) * broadcastInDim S150000x64 ![0, 1] bcast_S150000x1_S150000x64_0_1 (broadcastInDim S150000x1 ![0] bcast_S150000_S150000x1_0 dd) (ix2 p q)
      + broadcastInDim S150000x64 ![0, 1] bcast_S1x64_S150000x64_0_1 (broadcastInDim S1x64 ![1] bcast_S64_S1x64_1 b) (ix2 p q)
    = combAt A XW (shapeCast ⟨2, ![150000, 1]⟩ dd h1) (shapeCast ⟨2, ![1, 64]⟩ b h2) p q
  rw [Cert.LibHostBroadcast.col_to_mat_apply, Cert.LibHostBroadcast.vec_to_col_apply,
    Cert.LibHostBroadcast.row_to_mat_apply, Cert.LibHostBroadcast.vec_to_row_apply]
  unfold combAt
  rw [col_cast, row_cast]

/-- The host's relu (the maximum with the zero word broadcast) is the positive part. -/
theorem relu_host (x : FVec Ideal S150000x64 .f32) :
    maximumf x (broadcastInDim S150000x64 ![] bcast_S_S150000x64 (constant (F := Ideal) S_ .f32 0x00000000#32)) = reluArr x := by
  funext i
  rfl

end Cert.ReferenceIdeal.RefValue

end
-- ==== Proof.LibNary3.lean ====
/-
  A host operation over a literal family of three references (a concatenation of three operands): its result, with
  each operand's contents read at its own reference rather than under a binder over the family's index.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of a three-operand operation at its result reference: its function of the three operands' contents,
    given as the family that holds them in order. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.IdealHost.lean ====
/-
  What the program's buffers hold at each boundary, named by the reference's stages of the same arguments. The host
  stretches of the program apply the reference's own operations (gather the transformed features along the edges'
  sources, scale by the edge coefficient, scatter-add into the edges' targets; the degree vector and its inverse
  root), so once a region's output array is identified with the reference's stage — the multiplication region's
  with the host product, the combine region's with the host sum and its relu — the next stretch's results are the
  reference's next stages, term for term. The last stretch stacks the input features and the two layers' outputs.
-/
import proofs.«153885_j26242250178821_1_alg».proof.Proof.IdealRun
import proofs.«153885_j26242250178821_1_alg».proof.Proof.IdealArray0
import proofs.«153885_j26242250178821_1_alg».proof.Proof.IdealArray1
import proofs.«153885_j26242250178821_1_alg».proof.Proof.IdealArray2
import proofs.«153885_j26242250178821_1_alg».proof.Proof.IdealArray3
import proofs.«153885_j26242250178821_1_alg».proof.Proof.LayerHost
import proofs.«153885_j26242250178821_1_alg».proof.Proof.LibNary3

set_option maxRecDepth 16384

noncomputable section

namespace Cert.KernelIdeal.Hand

open Cert.KernelIdeal Cert.KernelIdeal.Gen Cert.Gcn
open Cert.ReferenceIdeal.Read Cert.ReferenceIdeal.RefValue
open Idealize.ShloMosaic Idealize.ShloMosaic.TcCoe Idealize.SL.Sem Idealize.ShloMosaic.StableHlo

variable (m : (ℓ : Loc nD τ sig) → Buf (Elt Ideal) ℓ) (c : Dev nD)

/-! ## The arguments -/

abbrev a0 : (⟨S100000x64, .f32⟩ : BufTy).Contents (Elt Ideal) := m ((c.tc : Thread nD τ).loc main_arg0)
abbrev a1 : (⟨S50000x64, .f32⟩ : BufTy).Contents (Elt Ideal) := m ((c.tc : Thread nD τ).loc main_arg1)
abbrev a2 : (⟨S64x64, .f32⟩ : BufTy).Contents (Elt Ideal) := m ((c.tc : Thread nD τ).loc main_arg2)
abbrev a3 : (⟨S64, .f32⟩ : BufTy).Contents (Elt Ideal) := m ((c.tc : Thread nD τ).loc main_arg3)
abbrev a4 : (⟨S64x64, .f32⟩ : BufTy).Contents (Elt Ideal) := m ((c.tc : Thread nD τ).loc main_arg4)
abbrev a5 : (⟨S64, .f32⟩ : BufTy).Contents (Elt Ideal) := m ((c.tc : Thread nD τ).loc main_arg5)
abbrev a6 : (⟨S2x3000000, .i32⟩ : BufTy).Contents (Elt Ideal) := m ((c.tc : Thread nD τ).loc main_arg6)

/-! ## After the first host stretch -/

/-- The stacked node features. -/
theorem W1_emb : W1 m c main_v4 = val_main_v4 (F := Ideal) (a0 m c) (a1 m c) := by
  dsimp only [W1, hostOps0]
  after_results_simp
  rfl

/-- The edges' sources, -/
theorem W1_row : W1 m c main_v1 = val_main_v1 (F := Ideal) (a6 m c) := by
  dsimp only [W1, hostOps0]
  after_results_simp
  rfl

/-- their targets, -/
theorem W1_col : W1 m c main_v3 = val_main_v3 (F := Ideal) (a6 m c) := by
  dsimp only [W1, hostOps0]
  after_results_simp
  rfl

/-- the edge coefficients (the product of the two endpoints' inverse root degrees), -/
theorem W1_coef : W1 m c main_v26 = val_main_v27 (F := Ideal) (a6 m c) := by
  dsimp only [W1, hostOps0]
  after_results_simp
  rfl

/-- and the squared inverse root degree, laid out as a column. -/
theorem W1_dd : W1 m c main_v28 = shapeCast S150000x1 (val_main_v41 (F := Ideal) (a6 m c)) shapeCasts_S150000_S150000x1 := by
  dsimp only [W1, hostOps0]
  after_results_simp
  rfl

/-- A buffer the first stretch does not write holds its launch contents. -/
theorem W1_arg (b : Ref sig .tc) (h : b ∉ hostOps0_W) : W1 m c (Proc.devRef .tc b) = m ((c : Thread nD τ).loc b) :=
  StableHlo.after_of_writes_sub hostOps0 _ hostOps0_writes h

/-! ## After the first multiplication -/

/-- The transformed features of the first layer are the reference's host product. -/
theorem W2_xw : W2 m c main_v29 = val_main_v5 (F := Ideal) (a0 m c) (a1 m c) (a2 m c) := by
  refine ((W2_arr m c 2).trans (final0 (X1 m) c)).trans ?_
  show prod (W1 m c main_v4) (W1 m c main_arg2) = _
  rw [W1_emb, W1_arg m c main_arg2 (by decide)]
  exact (dot_eq_prod _ _).symm

theorem W2_row : W2 m c main_v1 = val_main_v1 (F := Ideal) (a6 m c) := (W2_keep m c main_v1 (by decide)).trans (W1_row m c)
theorem W2_col : W2 m c main_v3 = val_main_v3 (F := Ideal) (a6 m c) := (W2_keep m c main_v3 (by decide)).trans (W1_col m c)
theorem W2_coef : W2 m c main_v26 = val_main_v27 (F := Ideal) (a6 m c) := (W2_keep m c main_v26 (by decide)).trans (W1_coef m c)
theorem W2_arg (b : Ref sig .tc) (h : b ∉ hostOps0_W) (h' : b ∉ ([main_v29] : List (Ref sig .tc))) :
    W2 m c (Proc.devRef .tc b) = m ((c : Thread nD τ).loc b) := (W2_keep m c b h').trans (W1_arg m c b h)

/-! ## After the second host stretch -/

/-- The aggregated messages of the first layer. -/
theorem W3_agg : W3 m c main_v42 = val_main_v40 (F := Ideal) (a0 m c) (a1 m c) (a2 m c) (a6 m c) := by
  dsimp only [W3, hostOps1]
  after_results_simp
  rw [W2_xw, W2_row, W2_col, W2_coef]
  rfl

/-- The first bias, laid out as a row. -/
theorem W3_bias : W3 m c main_v43 = shapeCast S1x64 (a3 m c) shapeCasts_S64_S1x64 := by
  dsimp only [W3, hostOps1]
  after_results
  rw [W2_arg m c main_arg3 (by decide) (by decide)]
  rfl

theorem W3_keep (b : Ref sig .tc) (h : b ∉ hostOps1_W) : W3 m c (Proc.devRef .tc b) = W2 m c (Proc.devRef .tc b) :=
  StableHlo.after_of_writes_sub hostOps1 _ hostOps1_writes h
theorem W3_xw : W3 m c main_v29 = val_main_v5 (F := Ideal) (a0 m c) (a1 m c) (a2 m c) := (W3_keep m c main_v29 (by decide)).trans (W2_xw m c)
theorem W3_dd : W3 m c main_v28 = shapeCast S150000x1 (val_main_v41 (F := Ideal) (a6 m c)) shapeCasts_S150000_S150000x1 :=
  (W3_keep m c main_v28 (by decide)).trans ((W2_keep m c main_v28 (by decide)).trans (W1_dd m c))

/-! ## After the first combine -/

/-- The combination the first combine region computes is the reference's first-layer output. -/
theorem comb1 : comb (W3 m c main_v42) (W3 m c main_v29) (W3 m c main_v28) (W3 m c main_v43)
    = val_main_v48 (F := Ideal) (a0 m c) (a1 m c) (a2 m c) (a3 m c) (a6 m c) := by
  rw [W3_agg, W3_xw, W3_dd, W3_bias]
  exact (comb_host (val_main_v40 (F := Ideal) (a0 m c) (a1 m c) (a2 m c) (a6 m c)) (val_main_v5 (F := Ideal) (a0 m c) (a1 m c) (a2 m c))
    (val_main_v41 (F := Ideal) (a6 m c)) (a3 m c) _ _).symm

/-- The first layer's output before the activation, -/
theorem W4_pre : W4 m c main_v44_0 = val_main_v48 (F := Ideal) (a0 m c) (a1 m c) (a2 m c) (a3 m c) (a6 m c) :=
  ((W4_arr m c 4).trans (final1_4 (X3 m) c)).trans (comb1 m c)

/-- and after it. -/
theorem W4_act : W4 m c main_v44_1 = val_main_v49 (F := Ideal) (a0 m c) (a1 m c) (a2 m c) (a3 m c) (a6 m c) := by
  refine ((W4_arr m c 5).trans (final1_5 (X3 m) c)).trans ?_
  show reluArr (comb (W3 m c main_v42) (W3 m c main_v29) (W3 m c main_v28) (W3 m c main_v43)) = _
  rw [comb1]
  exact (relu_host _).symm

theorem W4_of (b : Ref sig .tc) (h0 : b ∉ hostOps1_W) (h1 : b ∉ ([main_v29] : List (Ref sig .tc))) (h2 : b ∉ ([main_v44_0, main_v44_1] : List (Ref sig .tc))) :
    W4 m c (Proc.devRef .tc b) = W1 m c (Proc.devRef .tc b) :=
  (W4_keep m c b h2).trans ((W3_keep m c b h0).trans (W2_keep m c b h1))

/-! ## After the second multiplication -/

/-- The transformed features of the second layer are the reference's second host product. -/
theorem W5_xw : W5 m c main_v45 = val_main_v50 (F := Ideal) (a0 m c) (a1 m c) (a2 m c) (a3 m c) (a4 m c) (a6 m c) := by
  refine ((W5_arr m c 2).trans (final2 (X4 m) c)).trans ?_
  show prod (W4 m c main_v44_1) (W4 m c main_arg4) = _
  rw [W4_act, W4_of m c main_arg4 (by decide) (by decide) (by decide), W1_arg m c main_arg4 (by decide)]
  exact (dot_eq_prod _ _).symm

theorem W5_of (b : Ref sig .tc) (h0 : b ∉ hostOps1_W) (h1 : b ∉ ([main_v29] : List (Ref sig .tc))) (h2 : b ∉ ([main_v44_0, main_v44_1] : List (Ref sig .tc)))
    (h3 : b ∉ ([main_v45] : List (Ref sig .tc))) : W5 m c (Proc.devRef .tc b) = W1 m c (Proc.devRef .tc b) :=
  (W5_keep m c b h3).trans (W4_of m c b h0 h1 h2)
theorem W5_row : W5 m c main_v1 = val_main_v1 (F := Ideal) (a6 m c) := (W5_of m c main_v1 (by decide) (by decide) (by decide) (by decide)).trans (W1_row m c)
theorem W5_col : W5 m c main_v3 = val_main_v3 (F := Ideal) (a6 m c) := (W5_of m c main_v3 (by decide) (by decide) (by decide) (by decide)).trans (W1_col m c)
theorem W5_coef : W5 m c main_v26 = val_main_v27 (F := Ideal) (a6 m c) := (W5_of m c main_v26 (by decide) (by decide) (by decide) (by decide)).trans (W1_coef m c)

/-! ## After the third host stretch -/

/-- The aggregated messages of the second layer. -/
theorem W6_agg : W6 m c main_v58 = val_main_v85 (F := Ideal) (a0 m c) (a1 m c) (a2 m c) (a3 m c) (a4 m c) (a6 m c) := by
  dsimp only [W6, hostOps3]
  after_results_simp
  rw [W5_xw, W5_row, W5_col, W5_coef]
  rfl

/-- The second bias, laid out as a row. -/
theorem W6_bias : W6 m c main_v59 = shapeCast S1x64 (a5 m c) shapeCasts_S64_S1x64 := by
  dsimp only [W6, hostOps3]
  after_results
  rw [W5_of m c main_arg5 (by decide) (by decide) (by decide) (by decide), W1_arg m c main_arg5 (by decide)]
  rfl

theorem W6_keep (b : Ref sig .tc) (h : b ∉ hostOps3_W) : W6 m c (Proc.devRef .tc b) = W5 m c (Proc.devRef .tc b) :=
  StableHlo.after_of_writes_sub hostOps3 _ hostOps3_writes h
theorem W6_xw : W6 m c main_v45 = val_main_v50 (F := Ideal) (a0 m c) (a1 m c) (a2 m c) (a3 m c) (a4 m c) (a6 m c) :=
  (W6_keep m c main_v45 (by decide)).trans (W5_xw m c)
theorem W6_dd : W6 m c main_v28 = shapeCast S150000x1 (val_main_v41 (F := Ideal) (a6 m c)) shapeCasts_S150000_S150000x1 :=
  (W6_keep m c main_v28 (by decide)).trans ((W5_of m c main_v28 (by decide) (by decide) (by decide) (by decide)).trans (W1_dd m c))

/-! ## After the second combine -/

/-- The second layer's output before the activation. -/
theorem W7_pre : W7 m c main_v60_0 = val_main_v93 (F := Ideal) (a0 m c) (a1 m c) (a2 m c) (a3 m c) (a4 m c) (a5 m c) (a6 m c) := by
  refine ((W7_arr m c 4).trans (final3_4 (X6 m) c)).trans ?_
  show comb (W6 m c main_v58) (W6 m c main_v45) (W6 m c main_v28) (W6 m c main_v59) = _
  rw [W6_agg, W6_xw, W6_dd, W6_bias]
  exact (comb_host (val_main_v85 (F := Ideal) (a0 m c) (a1 m c) (a2 m c) (a3 m c) (a4 m c) (a6 m c))
    (val_main_v50 (F := Ideal) (a0 m c) (a1 m c) (a2 m c) (a3 m c) (a4 m c) (a6 m c))
    (val_main_v41 (F := Ideal) (a6 m c)) (a5 m c) _ _).symm

theorem W7_emb : W7 m c main_v4 = val_main_v4 (F := Ideal) (a0 m c) (a1 m c) :=
  (W7_keep m c main_v4 (by decide)).trans ((W6_keep m c main_v4 (by decide)).trans
    ((W5_of m c main_v4 (by decide) (by decide) (by decide) (by decide)).trans (W1_emb m c)))

theorem W7_pre1 : W7 m c main_v44_0 = val_main_v48 (F := Ideal) (a0 m c) (a1 m c) (a2 m c) (a3 m c) (a6 m c) :=
  (W7_keep m c main_v44_0 (by decide)).trans ((W6_keep m c main_v44_0 (by decide)).trans
    ((W5_keep m c main_v44_0 (by decide)).trans (W4_pre m c)))

/-! ## The end -/

/-- The program's result: the reference's result of the same arguments. -/
theorem W8_out : W8 m c main_v64
    = val_main_v98 (F := Ideal) (a0 m c) (a1 m c) (a2 m c) (a3 m c) (a4 m c) (a5 m c) (a6 m c) := by
  dsimp only [W8, hostOps4]
  simp only [after_cons, after_nil]
  rw [Cert.LibNary3.nary3_result]
  repeat (first | rw [unary_result] | (rw [unary_result_ne]; rotate_left; decide))
  rw [W7_emb, W7_pre1, W7_pre]
  rfl

end Cert.KernelIdeal.Hand

end
-- ==== Proof.lean ====
/-
  A two-layer graph convolution on 150000 nodes with 64 features: each layer multiplies the node features by a
  weight matrix, gathers the products along the edges' sources scaled by the product of the endpoints' inverse root
  degrees, scatter-adds them into the edges' targets, adds the self-loop term and the bias, and applies relu between
  the layers; the result stacks the input features and the two layers' outputs. The kernel program runs the two dense
  steps of each layer (the product, and the sum with the self-loop term and the bias) as tiled regions of 3000 rows
  and leaves the gather and the scatter-add on the host; the reference does everything on the host.

  At the ideal values the casts to a narrower float format in the product are the identity and a product into the
  zero accumulator is the plain sum over the contracted axis, so each region's output array is the reference's stage
  entry by entry, and the host lines in between are the reference's own operations. No law of the extended reals
  beyond reading both sides at an entry is used, and finiteness of the inputs is not needed.

  Frames: the word-level and the idealized kernel programs run as eight items (host stretch, region, host stretch,
  region, region, host stretch, region, host stretch) from the regions' body obligations; the reference's frame is its
  run with the result dropped. The idealization rewrote nothing, so there is nothing to preserve.
-/
import proofs.«153885_j26242250178821_1_alg».proof.Defs
import proofs.«153885_j26242250178821_1_alg».proof.Proof.Gen.Kernel
import proofs.«153885_j26242250178821_1_alg».proof.Proof.Gen.KernelIdeal
import proofs.«153885_j26242250178821_1_alg».proof.Proof.Gen.ReferenceIdeal
import proofs.«153885_j26242250178821_1_alg».proof.Proof.Gen.Pre_finite_inputs
import proofs.«153885_j26242250178821_1_alg».proof.Proof.Gen.ReferenceIdeal.Run
import proofs.«153885_j26242250178821_1_alg».proof.Proof.Gen.ReferenceIdeal.Read
import proofs.«153885_j26242250178821_1_alg».proof.Proof.BitsRun
import proofs.«153885_j26242250178821_1_alg».proof.Proof.IdealHost
import Idealize.ShloMosaic.Adequacy
import Idealize.ShloMosaic.Init

noncomputable section

namespace Cert.Proof

open Idealize.ShloMosaic Idealize.SL.Sem

/-- The idealized kernel program's run with its result named: the reference's result stage of the same arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v64)
        = Cert.ReferenceIdeal.Read.val_main_v98 (F := Ideal) (Cert.KernelIdeal.Hand.a0 m c) (Cert.KernelIdeal.Hand.a1 m c) (Cert.KernelIdeal.Hand.a2 m c)
            (Cert.KernelIdeal.Hand.a3 m c) (Cert.KernelIdeal.Hand.a4 m c) (Cert.KernelIdeal.Hand.a5 m c) (Cert.KernelIdeal.Hand.a6 m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  open Cert.KernelIdeal Cert.KernelIdeal.Gen Cert.KernelIdeal.Hand in
  (θ_run Cert.KernelIdeal.defs _ _).mono (fun r h c =>
    ⟨(h c _ (mem_uc main_v64 (by decide))).trans (W8_out m c),
     (h c _ (mem_uc main_arg0 (by decide))).trans (W8_kept m c main_arg0 (by decide) (by decide) (by decide) (by decide) (by decide) (by decide) (by decide) (by decide)),
     (h c _ (mem_uc main_arg1 (by decide))).trans (W8_kept m c main_arg1 (by decide) (by decide) (by decide) (by decide) (by decide) (by decide) (by decide) (by decide)),
     (h c _ (mem_uc main_arg2 (by decide))).trans (W8_kept m c main_arg2 (by decide) (by decide) (by decide) (by decide) (by decide) (by decide) (by decide) (by decide)),
     (h c _ (mem_uc main_arg3 (by decide))).trans (W8_kept m c main_arg3 (by decide) (by decide) (by decide) (by decide) (by decide) (by decide) (by decide) (by decide)),
     (h c _ (mem_uc main_arg4 (by decide))).trans (W8_kept m c main_arg4 (by decide) (by decide) (by decide) (by decide) (by decide) (by decide) (by decide) (by decide)),
     (h c _ (mem_uc main_arg5 (by decide))).trans (W8_kept m c main_arg5 (by decide) (by decide) (by decide) (by decide) (by decide) (by decide) (by decide) (by decide)),
     (h c _ (mem_uc main_arg6 (by decide))).trans (W8_kept m c main_arg6 (by decide) (by decide) (by decide) (by decide) (by decide) (by decide) (by decide) (by decide)),
     (h c _ (mem_uc main_arg7 (by decide))).trans (W8_kept m c main_arg7 (by decide) (by decide) (by decide) (by decide) (by decide) (by decide) (by decide) (by decide))⟩)
    (run_all m ρ)

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the kernel program's arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, (hagree c).1, (hagree c).2.1, (hagree c).2.2.1, (hagree c).2.2.2.1,
    (hagree c).2.2.2.2.1, (hagree c).2.2.2.2.2.1, (hagree c).2.2.2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
